-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v76)) (v1 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_v92) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x3200000 : Shape := ⟨2, ![2, 3200000]⟩
abbrev S100000 : Shape := ⟨1, ![100000]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel

variable [Facts]

def fn {F : FTy → Type} [FloatOps F] (main_arg0 : FVec F S100000x3 .f32) (main_arg1 : IVec S2x3200000 32) (main_arg2 : IVec S100000 32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  main_v3
-- ==== Kernel.lean ====
abbrev S100000x3 : Shape := ⟨2, ![100000, 3]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S100000x1 : Shape := ⟨2, ![100000, 1]⟩
abbrev S_ : Shape := ⟨0, ![]⟩
abbrev S3200000x1 : Shape := ⟨2, ![3200000, 1]⟩
abbrev S25000x128 : Shape := ⟨2, ![25000, 128]⟩
abbrev S5000x128 : Shape := ⟨2, ![5000, 128]⟩
abbrev S3200000x3 : Shape := ⟨2, ![3200000, 3]⟩
abbrev S64 : Shape := ⟨1, ![64]⟩

abbrev nBuf : Space → Nat
  | .hbm => 119
  | .vmem => 14
  | .smem => 0
  | _ => 0

abbrev bufTy : (tb : Table) → Fin (tcTables nBuf tb) → BufTy
  | .hbm, ⟨0, _⟩ => ⟨S100000x3, .f32⟩
  | .hbm, ⟨1, _⟩ => ⟨S2x3200000, .i32⟩
  | .hbm, ⟨2, _⟩ => ⟨S100000, .i32⟩
  | .hbm, ⟨3, _⟩ => ⟨S1x3200000, .i32⟩
  | .hbm, ⟨4, _⟩ => ⟨S3200000, .i32⟩
  | .hbm, ⟨5, _⟩ => ⟨S1x3200000, .i32⟩
  | .hbm, ⟨6, _⟩ => ⟨S3200000, .i32⟩
  | .hbm, ⟨7, _⟩ => ⟨S100000x1, .f32⟩
  | .hbm, ⟨8, _⟩ => ⟨S100000, .f32⟩
  | .hbm, ⟨9, _⟩ => ⟨S100000x1, .f32⟩
  | .hbm, ⟨10, _⟩ => ⟨S100000, .f32⟩
  | .hbm, ⟨11, _⟩ => ⟨S100000x1, .f32⟩
  | .hbm, ⟨12, _⟩ => ⟨S100000, .f32⟩
  | .hbm, ⟨13, _⟩ => ⟨S_, .i32⟩
  | .hbm, ⟨14, _⟩ => ⟨S3200000, .i32⟩
  | .hbm, ⟨15, _⟩ => ⟨S3200000, .i1⟩
  | .hbm, ⟨16, _⟩ => ⟨S_, .i32⟩
  | .hbm, ⟨17, _⟩ => ⟨S3200000, .i32⟩
  | .hbm, ⟨18, _⟩ => ⟨S3200000, .i32⟩
  | .hbm, ⟨19, _⟩ => ⟨S3200000, .i32⟩
  | .hbm, ⟨20, _⟩ => ⟨S3200000x1, .i32⟩
  | .hbm, ⟨21, _⟩ => ⟨S3200000, .f32⟩
  | .hbm, ⟨22, _⟩ => ⟨S_, .i32⟩
  | .hbm, ⟨23, _⟩ => ⟨S3200000, .i32⟩
  | .hbm, ⟨24, _⟩ => ⟨S3200000, .i1⟩
  | .hbm, ⟨25, _⟩ => ⟨S_, .i32⟩
  | .hbm, ⟨26, _⟩ => ⟨S3200000, .i32⟩
  | .hbm, ⟨27, _⟩ => ⟨S3200000, .i32⟩
  | .hbm, ⟨28, _⟩ => ⟨S3200000, .i32⟩
  | .hbm, ⟨29, _⟩ => ⟨S3200000x1, .i32⟩
  | .hbm, ⟨30, _⟩ => ⟨S3200000, .f32⟩
  | .hbm, ⟨31, _⟩ => ⟨S3200000, .f32⟩
  | .hbm, ⟨32, _⟩ => ⟨S_, .i32⟩
  | .hbm, ⟨33, _⟩ => ⟨S3200000, .i32⟩
  | .hbm, ⟨34, _⟩ => ⟨S3200000, .i1⟩
  | .hbm, ⟨35, _⟩ => ⟨S_, .i32⟩
  | .hbm, ⟨36, _⟩ => ⟨S3200000, .i32⟩
  | .hbm, ⟨37, _⟩ => ⟨S3200000, .i32⟩
  | .hbm, ⟨38, _⟩ => ⟨S3200000, .i32⟩
  | .hbm, ⟨39, _⟩ => ⟨S3200000x1, .i32⟩
  | .hbm, ⟨40, _⟩ => ⟨S3200000, .f32⟩
  | .hbm, ⟨41, _⟩ => ⟨S_, .i32⟩
  | .hbm, ⟨42, _⟩ => ⟨S3200000, .i32⟩
  | .hbm, ⟨43, _⟩ => ⟨S3200000, .i1⟩
  | .hbm, ⟨44, _⟩ => ⟨S_, .i32⟩
  | .hbm, ⟨45, _⟩ => ⟨S3200000, .i32⟩
  | .hbm, ⟨46, _⟩ => ⟨S3200000, .i32⟩
  | .hbm, ⟨47, _⟩ => ⟨S3200000, .i32⟩
  | .hbm, ⟨48, _⟩ => ⟨S3200000x1, .i32⟩
  | .hbm, ⟨49, _⟩ => ⟨S3200000, .f32⟩
  | .hbm, ⟨50, _⟩ => ⟨S3200000, .f32⟩
  | .hbm, ⟨51, _⟩ => ⟨S_, .i32⟩
  | .hbm, ⟨52, _⟩ => ⟨S3200000, .i32⟩
  | .hbm, ⟨53, _⟩ => ⟨S3200000, .i1⟩
  | .hbm, ⟨54, _⟩ => ⟨S_, .i32⟩
  | .hbm, ⟨55, _⟩ => ⟨S3200000, .i32⟩
  | .hbm, ⟨56, _⟩ => ⟨S3200000, .i32⟩
  | .hbm, ⟨57, _⟩ => ⟨S3200000, .i32⟩
  | .hbm, ⟨58, _⟩ => ⟨S3200000x1, .i32⟩
  | .hbm, ⟨59, _⟩ => ⟨S3200000, .f32⟩
  | .hbm, ⟨60, _⟩ => ⟨S_, .i32⟩
  | .hbm, ⟨61, _⟩ => ⟨S3200000, .i32⟩
  | .hbm, ⟨62, _⟩ => ⟨S3200000, .i1⟩
  | .hbm, ⟨63, _⟩ => ⟨S_, .i32⟩
  | .hbm, ⟨64, _⟩ => ⟨S3200000, .i32⟩
  | .hbm, ⟨65, _⟩ => ⟨S3200000, .i32⟩
  | .hbm, ⟨66, _⟩ => ⟨S3200000, .i32⟩
  | .hbm, ⟨67, _⟩ => ⟨S3200000x1, .i32⟩
  | .hbm, ⟨68, _⟩ => ⟨S3200000, .f32⟩
  | .hbm, ⟨69, _⟩ => ⟨S3200000, .f32⟩
  | .hbm, ⟨70, _⟩ => ⟨S25000x128, .f32⟩
  | .hbm, ⟨71, _⟩ => ⟨S25000x128, .f32⟩
  | .hbm, ⟨72, _⟩ => ⟨S25000x128, .f32⟩
  | .hbm, ⟨73, _⟩ => ⟨S25000x128, .f32⟩
  | .hbm, ⟨74, _⟩ => ⟨S25000x128, .f32⟩
  | .hbm, ⟨75, _⟩ => ⟨S25000x128, .f32⟩
  | .hbm, ⟨76, _⟩ => ⟨S25000x128, .f32⟩
  | .hbm, ⟨77, _⟩ => ⟨S3200000, .f32⟩
  | .hbm, ⟨78, _⟩ => ⟨S3200000, .f32⟩
  | .hbm, ⟨79, _⟩ => ⟨S3200000, .f32⟩
  | .hbm, ⟨80, _⟩ => ⟨S3200000, .f32⟩
  | .hbm, ⟨81, _⟩ => ⟨S3200000x1, .f32⟩
  | .hbm, ⟨82, _⟩ => ⟨S3200000x1, .f32⟩
  | .hbm, ⟨83, _⟩ => ⟨S3200000x1, .f32⟩
  | .hbm, ⟨84, _⟩ => ⟨S3200000x3, .f32⟩
  | .hbm, ⟨85, _⟩ => ⟨S_, .i32⟩
  | .hbm, ⟨86, _⟩ => ⟨S3200000, .i32⟩
  | .hbm, ⟨87, _⟩ => ⟨S3200000, .i1⟩
  | .hbm, ⟨88, _⟩ => ⟨S_, .i32⟩
  | .hbm, ⟨89, _⟩ => ⟨S3200000, .i32⟩
  | .hbm, ⟨90, _⟩ => ⟨S3200000, .i32⟩
  | .hbm, ⟨91, _⟩ => ⟨S3200000, .i32⟩
  | .hbm, ⟨92, _⟩ => ⟨S3200000x1, .i32⟩
  | .hbm, ⟨93, _⟩ => ⟨S3200000, .i32⟩
  | .hbm, ⟨94, _⟩ => ⟨S_, .f32⟩
  | .hbm, ⟨95, _⟩ => ⟨S64, .f32⟩
  | .hbm, ⟨96, _⟩ => ⟨S3200000x1, .i32⟩
  | .hbm, ⟨97, _⟩ => ⟨S64, .f32⟩
  | .hbm, ⟨98, _⟩ => ⟨S_, .f32⟩
  | .hbm, ⟨99, _⟩ => ⟨S100000x3, .f32⟩
  | .hbm, ⟨100, _⟩ => ⟨S3200000x3, .f32⟩
  | .hbm, ⟨101, _⟩ => ⟨S_, .i32⟩
  | .hbm, ⟨102, _⟩ => ⟨S3200000, .i32⟩
  | .hbm, ⟨103, _⟩ => ⟨S3200000, .i1⟩
  | .hbm, ⟨104, _⟩ => ⟨S_, .i32⟩
  | .hbm, ⟨105, _⟩ => ⟨S3200000, .i32⟩
  | .hbm, ⟨106, _⟩ => ⟨S3200000, .i32⟩
  | .hbm, ⟨107, _⟩ => ⟨S3200000, .i32⟩
  | .hbm, ⟨108, _⟩ => ⟨S3200000x1, .i32⟩
  | .hbm, ⟨109, _⟩ => ⟨S100000x3, .f32⟩
  | .hbm, ⟨110, _⟩ => ⟨S_, .i32⟩
  | .hbm, ⟨111, _⟩ => ⟨S3200000, .i32⟩
  | .hbm, ⟨112, _⟩ => ⟨S3200000, .i1⟩
  | .hbm, ⟨113, _⟩ => ⟨S_, .i32⟩
  | .hbm, ⟨114, _⟩ => ⟨S3200000, .i32⟩
  | .hbm, ⟨115, _⟩ => ⟨S3200000, .i32⟩
  | .hbm, ⟨116, _⟩ => ⟨S3200000, .i32⟩
  | .hbm, ⟨117, _⟩ => ⟨S3200000x1, .i32⟩
  | .hbm, ⟨118, _⟩ => ⟨S100000x3, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_1 : Ref sig .tc := ⟨.hbm, 22, rfl⟩
abbrev main_v17 : Ref sig .tc := ⟨.hbm, 23, rfl⟩
abbrev main_v18 : Ref sig .tc := ⟨.hbm, 24, rfl⟩
abbrev main_c_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_3 : Ref sig .tc := ⟨.hbm, 32, rfl⟩
abbrev main_v25 : Ref sig .tc := ⟨.hbm, 33, rfl⟩
abbrev main_v26 : Ref sig .tc := ⟨.hbm, 34, rfl⟩
abbrev main_c_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_5 : Ref sig .tc := ⟨.hbm, 41, rfl⟩
abbrev main_v32 : Ref sig .tc := ⟨.hbm, 42, rfl⟩
abbrev main_v33 : Ref sig .tc := ⟨.hbm, 43, rfl⟩
abbrev main_c_6 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_c_7 : Ref sig .tc := ⟨.hbm, 51, rfl⟩
abbrev main_v40 : Ref sig .tc := ⟨.hbm, 52, rfl⟩
abbrev main_v41 : Ref sig .tc := ⟨.hbm, 53, rfl⟩
abbrev main_c_8 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c_9 : Ref sig .tc := ⟨.hbm, 60, rfl⟩
abbrev main_v47 : Ref sig .tc := ⟨.hbm, 61, rfl⟩
abbrev main_v48 : Ref sig .tc := ⟨.hbm, 62, rfl⟩
abbrev main_c_10 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58_0 : Ref sig .tc := ⟨.hbm, 73, rfl⟩
abbrev main_v58_1 : Ref sig .tc := ⟨.hbm, 74, rfl⟩
abbrev main_v58_2 : Ref sig .tc := ⟨.hbm, 75, rfl⟩
abbrev main_v58_3 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_c_11 : Ref sig .tc := ⟨.hbm, 85, rfl⟩
abbrev main_v67 : Ref sig .tc := ⟨.hbm, 86, rfl⟩
abbrev main_v68 : Ref sig .tc := ⟨.hbm, 87, rfl⟩
abbrev main_c_12 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_13 : Ref sig .tc := ⟨.hbm, 98, rfl⟩
abbrev main_v77 : Ref sig .tc := ⟨.hbm, 99, rfl⟩
abbrev main_v78 : Ref sig .tc := ⟨.hbm, 100, rfl⟩
abbrev main_c_14 : Ref sig .tc := ⟨.hbm, 101, rfl⟩
abbrev main_v79 : Ref sig .tc := ⟨.hbm, 102, rfl⟩
abbrev main_v80 : Ref sig .tc := ⟨.hbm, 103, rfl⟩
abbrev main_c_15 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_c_16 : Ref sig .tc := ⟨.hbm, 110, rfl⟩
abbrev main_v86 : Ref sig .tc := ⟨.hbm, 111, rfl⟩
abbrev main_v87 : Ref sig .tc := ⟨.hbm, 112, rfl⟩
abbrev main_c_17 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  slices_S100000x3_S100000x1_0_0 : S100000x3.Slices ![0, 0] S100000x1
  shapeCasts_S100000x1_S100000 : S100000x1.ShapeCasts S100000
  slices_S100000x3_S100000x1_0_1 : S100000x3.Slices ![0, 1] S100000x1
  slices_S100000x3_S100000x1_0_2 : S100000x3.Slices ![0, 2] S100000x1
  bcast_S_S3200000 : S_.BroadcastsInDim S3200000 (![] : Fin 0 → Fin S3200000.rank)
  bcast_S3200000_S3200000x1_0 : S3200000.BroadcastsInDim S3200000x1 (![0] : Fin 1 → Fin S3200000x1.rank)
  shapeCasts_S3200000_S25000x128 : S3200000.ShapeCasts S25000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S25000x128_S3200000 : S25000x128.ShapeCasts S3200000
  concatenates_S3200000x1_S3200000x1_S3200000x1_S3200000x3_d1 : Shape.Concatenates [S3200000x1, S3200000x1, S3200000x1] S3200000x3 1
  bcast_S_S64 : S_.BroadcastsInDim S64 (![] : Fin 0 → Fin S64.rank)
  bcast_S_S100000x3 : S_.BroadcastsInDim S100000x3 (![] : Fin 0 → Fin S100000x3.rank)
  gather_S100000_S3200000x1_S3200000_n_0_n_n_0_1_1_wf : GatherDims.WF S100000 S3200000x1 S3200000 [] [0] [] [0] [] 1 ![1]
  scatter_S64_S3200000x1_S3200000_n_0_0_1_wf : ScatterDims.WF S64 S3200000x1 S3200000 [] [0] [0] 1
  scatter_S100000x3_S3200000x1_S3200000x3_1_0_0_1_wf : ScatterDims.WF S100000x3 S3200000x1 S3200000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S25000x128.size a
  hwx0_0 : ∀ i : grid0.Coords, EltTy.bits .f32 = 32 ∨ (Rect.block (s := S25000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S25000x128.size a
  hwx0_1 : ∀ i : grid0.Coords, EltTy.bits .f32 = 32 ∨ (Rect.block (s := S25000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S25000x128.size a
  hwx0_2 : ∀ i : grid0.Coords, EltTy.bits .f32 = 32 ∨ (Rect.block (s := S25000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S25000x128.size a
  hwx0_3 : ∀ i : grid0.Coords, EltTy.bits .f32 = 32 ∨ (Rect.block (s := S25000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S25000x128.size a
  hwx0_4 : ∀ i : grid0.Coords, EltTy.bits .f32 = 32 ∨ (Rect.block (s := S25000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S25000x128.size a
  hwx0_5 : ∀ i : grid0.Coords, EltTy.bits .f32 = 32 ∨ (Rect.block (s := S25000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S25000x128.size a
  hwx0_6 : ∀ i : grid0.Coords, EltTy.bits .f32 = 32 ∨ (Rect.block (s := S25000x128) S5000x128.size (cc0_transform_6 i) (hinb0_6 i)).WholeWords (EltTy.packing .f32)

variable [Facts₀]

def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def scatter_S64_S3200000x1_S3200000_n_0_0_1 : ScatterDims S64 S3200000x1 S3200000 where
  updateWindowDims := []
  insertedWindowDims := [0]
  scatterDimsToOperandDims := [0]
  indexVectorDim := 1
  wf := scatter_S64_S3200000x1_S3200000_n_0_0_1_wf
def scatter_S100000x3_S3200000x1_S3200000x3_1_0_0_1 : ScatterDims S100000x3 S3200000x1 S3200000x3 where
  updateWindowDims := [1]
  insertedWindowDims := [0]
  scatterDimsToOperandDims := [0]
  indexVectorDim := 1
  wf := scatter_S100000x3_S3200000x1_S3200000x3_1_0_0_1_wf

abbrev win0_0 : Pipeline.Window sig grid0 :=
  Pipeline.Window.ofSpec (Memref.whole main_v55) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v56) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v57) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v58_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v58_1) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v58_2) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v58_3) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x3 : Shape := ⟨2, ![100000, 3]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x3 : Shape := ⟨2, ![3200000, 3]⟩
abbrev S64 : Shape := ⟨1, ![64]⟩

abbrev nBuf : Space → Nat
  | .hbm => 83
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S2x3200000, .i32⟩
  | .hbm, ⟨2, _⟩ => ⟨S100000, .i32⟩
  | .hbm, ⟨3, _⟩ => ⟨S1x3200000, .i32⟩
  | .hbm, ⟨4, _⟩ => ⟨S3200000, .i32⟩
  | .hbm, ⟨5, _⟩ => ⟨S1x3200000, .i32⟩
  | .hbm, ⟨6, _⟩ => ⟨S3200000, .i32⟩
  | .hbm, ⟨7, _⟩ => ⟨S_, .i32⟩
  | .hbm, ⟨8, _⟩ => ⟨S3200000, .i32⟩
  | .hbm, ⟨9, _⟩ => ⟨S3200000, .i1⟩
  | .hbm, ⟨10, _⟩ => ⟨S_, .i32⟩
  | .hbm, ⟨11, _⟩ => ⟨S3200000, .i32⟩
  | .hbm, ⟨12, _⟩ => ⟨S3200000, .i32⟩
  | .hbm, ⟨13, _⟩ => ⟨S3200000, .i32⟩
  | .hbm, ⟨14, _⟩ => ⟨S3200000x1, .i32⟩
  | .hbm, ⟨15, _⟩ => ⟨S3200000x3, .f32⟩
  | .hbm, ⟨16, _⟩ => ⟨S_, .i32⟩
  | .hbm, ⟨17, _⟩ => ⟨S3200000, .i32⟩
  | .hbm, ⟨18, _⟩ => ⟨S3200000, .i1⟩
  | .hbm, ⟨19, _⟩ => ⟨S_, .i32⟩
  | .hbm, ⟨20, _⟩ => ⟨S3200000, .i32⟩
  | .hbm, ⟨21, _⟩ => ⟨S3200000, .i32⟩
  | .hbm, ⟨22, _⟩ => ⟨S3200000, .i32⟩
  | .hbm, ⟨23, _⟩ => ⟨S3200000x1, .i32⟩
  | .hbm, ⟨24, _⟩ => ⟨S3200000x3, .f32⟩
  | .hbm, ⟨25, _⟩ => ⟨S3200000x3, .f32⟩
  | .hbm, ⟨26, _⟩ => ⟨S3200000x3, .f32⟩
  | .hbm, ⟨27, _⟩ => ⟨S_, .f32⟩
  | .hbm, ⟨28, _⟩ => ⟨S3200000, .f32⟩
  | .hbm, ⟨29, _⟩ => ⟨S3200000, .f32⟩
  | .hbm, ⟨30, _⟩ => ⟨S_, .f32⟩
  | .hbm, ⟨31, _⟩ => ⟨S3200000, .f32⟩
  | .hbm, ⟨32, _⟩ => ⟨S3200000, .f32⟩
  | .hbm, ⟨33, _⟩ => ⟨S3200000, .f32⟩
  | .hbm, ⟨34, _⟩ => ⟨S_, .f32⟩
  | .hbm, ⟨35, _⟩ => ⟨S3200000, .f32⟩
  | .hbm, ⟨36, _⟩ => ⟨S3200000, .f32⟩
  | .hbm, ⟨37, _⟩ => ⟨S_, .i32⟩
  | .hbm, ⟨38, _⟩ => ⟨S3200000, .i32⟩
  | .hbm, ⟨39, _⟩ => ⟨S3200000, .i1⟩
  | .hbm, ⟨40, _⟩ => ⟨S_, .i32⟩
  | .hbm, ⟨41, _⟩ => ⟨S3200000, .i32⟩
  | .hbm, ⟨42, _⟩ => ⟨S3200000, .i32⟩
  | .hbm, ⟨43, _⟩ => ⟨S3200000, .i32⟩
  | .hbm, ⟨44, _⟩ => ⟨S3200000x1, .i32⟩
  | .hbm, ⟨45, _⟩ => ⟨S3200000, .i32⟩
  | .hbm, ⟨46, _⟩ => ⟨S_, .f32⟩
  | .hbm, ⟨47, _⟩ => ⟨S64, .f32⟩
  | .hbm, ⟨48, _⟩ => ⟨S3200000x1, .i32⟩
  | .hbm, ⟨49, _⟩ => ⟨S64, .f32⟩
  | .hbm, ⟨50, _⟩ => ⟨S_, .f32⟩
  | .hbm, ⟨51, _⟩ => ⟨S3200000, .f32⟩
  | .hbm, ⟨52, _⟩ => ⟨S3200000, .f32⟩
  | .hbm, ⟨53, _⟩ => ⟨S3200000x1, .f32⟩
  | .hbm, ⟨54, _⟩ => ⟨S3200000x3, .f32⟩
  | .hbm, ⟨55, _⟩ => ⟨S3200000x3, .f32⟩
  | .hbm, ⟨56, _⟩ => ⟨S_, .f32⟩
  | .hbm, ⟨57, _⟩ => ⟨S3200000, .f32⟩
  | .hbm, ⟨58, _⟩ => ⟨S3200000, .f32⟩
  | .hbm, ⟨59, _⟩ => ⟨S3200000x1, .f32⟩
  | .hbm, ⟨60, _⟩ => ⟨S3200000x3, .f32⟩
  | .hbm, ⟨61, _⟩ => ⟨S3200000x3, .f32⟩
  | .hbm, ⟨62, _⟩ => ⟨S_, .f32⟩
  | .hbm, ⟨63, _⟩ => ⟨S100000x3, .f32⟩
  | .hbm, ⟨64, _⟩ => ⟨S3200000x3, .f32⟩
  | .hbm, ⟨65, _⟩ => ⟨S_, .i32⟩
  | .hbm, ⟨66, _⟩ => ⟨S3200000, .i32⟩
  | .hbm, ⟨67, _⟩ => ⟨S3200000, .i1⟩
  | .hbm, ⟨68, _⟩ => ⟨S_, .i32⟩
  | .hbm, ⟨69, _⟩ => ⟨S3200000, .i32⟩
  | .hbm, ⟨70, _⟩ => ⟨S3200000, .i32⟩
  | .hbm, ⟨71, _⟩ => ⟨S3200000, .i32⟩
  | .hbm, ⟨72, _⟩ => ⟨S3200000x1, .i32⟩
  | .hbm, ⟨73, _⟩ => ⟨S100000x3, .f32⟩
  | .hbm, ⟨74, _⟩ => ⟨S_, .i32⟩
  | .hbm, ⟨75, _⟩ => ⟨S3200000, .i32⟩
  | .hbm, ⟨76, _⟩ => ⟨S3200000, .i1⟩
  | .hbm, ⟨77, _⟩ => ⟨S_, .i32⟩
  | .hbm, ⟨78, _⟩ => ⟨S3200000, .i32⟩
  | .hbm, ⟨79, _⟩ => ⟨S3200000, .i32⟩
  | .hbm, ⟨80, _⟩ => ⟨S3200000, .i32⟩
  | .hbm, ⟨81, _⟩ => ⟨S3200000x1, .i32⟩
  | .hbm, ⟨82, _⟩ => ⟨S100000x3, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_cst : Ref sig .tc := ⟨.hbm, 27, rfl⟩
abbrev main_call0_v1 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_c_10 : Ref sig .tc := ⟨.hbm, 65, rfl⟩
abbrev main_v47 : Ref sig .tc := ⟨.hbm, 66, rfl⟩
abbrev main_v48 : Ref sig .tc := ⟨.hbm, 67, rfl⟩
abbrev main_c_11 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_12 : Ref sig .tc := ⟨.hbm, 74, rfl⟩
abbrev main_v54 : Ref sig .tc := ⟨.hbm, 75, rfl⟩
abbrev main_v55 : Ref sig .tc := ⟨.hbm, 76, rfl⟩
abbrev main_c_13 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  reducesTo_S3200000x3_S3200000_d1 : S3200000x3.ReducesTo [1] S3200000
  h_S_ : 0 < S_.numel
  bcast_S_S64 : S_.BroadcastsInDim S64 (![] : Fin 0 → Fin S64.rank)
  bcast_S3200000x1_S3200000x3_0_1 : S3200000x1.BroadcastsInDim S3200000x3 (![0, 1] : Fin 2 → Fin S3200000x3.rank)
  bcast_S_S100000x3 : S_.BroadcastsInDim S100000x3 (![] : Fin 0 → Fin S100000x3.rank)
  gather_S100000x3_S3200000x1_S3200000x3_1_0_n_n_0_1_13_wf : GatherDims.WF S100000x3 S3200000x1 S3200000x3 [1] [0] [] [0] [] 1 ![1, 3]
  gather_S100000_S3200000x1_S3200000_n_0_n_n_0_1_1_wf : GatherDims.WF S100000 S3200000x1 S3200000 [] [0] [] [0] [] 1 ![1]
  scatter_S64_S3200000x1_S3200000_n_0_0_1_wf : ScatterDims.WF S64 S3200000x1 S3200000 [] [0] [0] 1
  scatter_S100000x3_S3200000x1_S3200000x3_1_0_0_1_wf : ScatterDims.WF S100000x3 S3200000x1 S3200000x3 [1] [0] [0] 1

variable [Facts₀]

def gather_S100000x3_S3200000x1_S3200000x3_1_0_n_n_0_1_13 : GatherDims S100000x3 S3200000x1 S3200000x3 where
  offsetDims := [1]
  collapsedSliceDims := [0]
  operandBatchingDims := []
  startIndicesBatchingDims := []
  startIndexMap := [0]
  indexVectorDim := 1
  sliceSizes := ![1, 3]
  wf := gather_S100000x3_S3200000x1_S3200000x3_1_0_n_n_0_1_13_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def scatter_S64_S3200000x1_S3200000_n_0_0_1 : ScatterDims S64 S3200000x1 S3200000 where
  updateWindowDims := []
  insertedWindowDims := [0]
  scatterDimsToOperandDims := [0]
  indexVectorDim := 1
  wf := scatter_S64_S3200000x1_S3200000_n_0_0_1_wf
def scatter_S100000x3_S3200000x1_S3200000x3_1_0_0_1 : ScatterDims S100000x3 S3200000x1 S3200000x3 where
  updateWindowDims := [1]
  insertedWindowDims := [0]
  scatterDimsToOperandDims := [0]
  indexVectorDim := 1
  wf := scatter_S100000x3_S3200000x1_S3200000x3_1_0_0_1_wf

class Facts : Prop extends Facts₀ where

variable [Facts]
-- ==== Proof.KFrameHost.lean ====
/-
  The frame of the harmonic-lattice program, at any float instance.

  The program is: host operations that gather the three coordinate differences of every edge and lay
  them out as 25000 x 128 arrays; ONE region over a grid of 5 points, each point working on a block of
  5000 rows of the three difference arrays and writing a block of 5000 rows of four result arrays (the
  edge energy and the three force components); then host operations that scatter the results.

  What a point leaves in each result block is a pointwise function of the three input blocks at that
  point: the whole block stored by one store (out_energy, out_fx, out_fy, out_fz below).  The body
  reads nothing else and keeps nothing between points, so the invariant of the region is the plain
  one.  The host lines after the region write only their own result buffers, never an array of the
  region and never an argument; the host lines before the region likewise never write an argument.
  Hence every weakly fair execution terminates without a fault with the three argument arrays as
  they were launched.
-/
import proofs.«170533_j6313601925565_2_alg».proof.Proof.Gen.Kernel.Launch
import proofs.«170533_j6313601925565_2_alg».proof.Proof.Gen.Kernel.Skeleton
import proofs.«170533_j6313601925565_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Cert.Kernel.Facts₀ Cert.Kernel.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The buffers' contents on core c when the region is entered: the launch contents run through the host
    lines that precede the region. -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

/-- No host line allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the lines before the region, the region, the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch only unscoped buffers of the core. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- Each line after the region writes its own result buffer, which is none of the seven arrays of the region. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes,
    StableHlo.ternary_writes, StableHlo.reshape_writes, StableHlo.nary_writes, Finset.mem_singleton]
  repeat' apply And.intro
  all_goals intro w; fin_cases w <;> exact StableHlo.devRef_ne_of_ne (by decide)

theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp hostOps1_keeps) op hop

/-- No line before the region writes the reference b, when b is none of their result buffers. -/
theorem V_of_arg (c : Dev nD) (b : Ref sig .tc)
    (hb : (hostOps0 : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp (by
    simpa only [List.flatten_cons, List.flatten_nil, List.append_nil] using hb))

theorem hostOps0_keeps_arg0 : (hostOps0 : List (HloOp τ sig (Elt F))).Forall fun op => Proc.devRef .tc main_arg0 ∉ op.writes := by
  simp only [hostOps0, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)
theorem hostOps0_keeps_arg1 : (hostOps0 : List (HloOp τ sig (Elt F))).Forall fun op => Proc.devRef .tc main_arg1 ∉ op.writes := by
  simp only [hostOps0, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)
theorem hostOps0_keeps_arg2 : (hostOps0 : List (HloOp τ sig (Elt F))).Forall fun op => Proc.devRef .tc main_arg2 ∉ op.writes := by
  simp only [hostOps0, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)
theorem hostOps1_keeps_arg0 : (hostOps1 : List (HloOp τ sig (Elt F))).Forall fun op => Proc.devRef .tc main_arg0 ∉ op.writes := by
  simp only [hostOps1, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)
theorem hostOps1_keeps_arg1 : (hostOps1 : List (HloOp τ sig (Elt F))).Forall fun op => Proc.devRef .tc main_arg1 ∉ op.writes := by
  simp only [hostOps1, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)
theorem hostOps1_keeps_arg2 : (hostOps1 : List (HloOp τ sig (Elt F))).Forall fun op => Proc.devRef .tc main_arg2 ∉ op.writes := by
  simp only [hostOps1, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

/-- The region finds each argument array as launched. -/
theorem V_main_arg0 (c : Dev nD) : V m c main_arg0 = m ((c : Thread nD τ).loc main_arg0) := V_of_arg m c _ hostOps0_keeps_arg0
theorem V_main_arg1 (c : Dev nD) : V m c main_arg1 = m ((c : Thread nD τ).loc main_arg1) := V_of_arg m c _ hostOps0_keeps_arg1
theorem V_main_arg2 (c : Dev nD) : V m c main_arg2 = m ((c : Thread nD τ).loc main_arg2) := V_of_arg m c _ hostOps0_keeps_arg2

/-- A buffer b that is no array of the region and that no line after the region writes ends at its region-entry contents. -/
theorem tail_of_arg (dats : (p : Fin _) → (c : Dev nD) → Dat τ (Elt F) Unit ℕ (UR sig nD τ) ℕ (cfgs p) c) (c : Dev nD) (b : Ref sig .tc)
    (hb : (hostOps1 : List (HloOp τ sig (Elt F))).Forall fun op => Proc.devRef .tc b ∉ op.writes)
    (hne : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simpa only [List.flatten_cons, List.flatten_nil, List.append_nil] using hb)),
    Pipeline.withArrays_of_ne _ c (V0 m c) _ b hne]

/-! ## The blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What a point leaves in each result block -/

/-- The whole block, as a rectangle: every access of the body is through it. -/
abbrev whole : Rect S5000x128 := Rect.unit (s := S5000x128) ![0, 0] S5000x128.size Facts₀.inb_S5000x128_S5000x128_0_0

/-- The edge-energy block from the three difference blocks: the one store of the energy. -/
def out_energy (x0 x1 x2 : Vec F S5000x128 .f32) : Vec F S5000x128 .f32 :=
  View.canon [⟨whole, k0_pay6 (View.ld x0 whole) (View.ld x1 whole) (View.ld x2 whole)⟩]
/-- The block of the force's first component. -/
def out_fx (x0 x1 x2 : Vec F S5000x128 .f32) : Vec F S5000x128 .f32 :=
  View.canon [⟨whole, k0_pay8 (View.ld x0 whole) (View.ld x1 whole) (View.ld x2 whole)⟩]
/-- The block of the force's second component. -/
def out_fy (x0 x1 x2 : Vec F S5000x128 .f32) : Vec F S5000x128 .f32 :=
  View.canon [⟨whole, k0_pay9 (View.ld x0 whole) (View.ld x1 whole) (View.ld x2 whole)⟩]
/-- The block of the force's third component. -/
def out_fz (x0 x1 x2 : Vec F S5000x128 .f32) : Vec F S5000x128 .f32 :=
  View.canon [⟨whole, k0_pay10 (View.ld x0 whole) (View.ld x1 whole) (View.ld x2 whole)⟩]

/-- One store through the whole rectangle covers the block. -/
theorem cover_whole (p0 : Vec F S5000x128 .f32) (y : S5000x128.Idx) :
    ∃ pc ∈ ([⟨whole, p0⟩] : List (View.Piece (Elt F) S5000x128 .f32)), y ∈ pc.1.set :=
  View.cover_of_tiled [⟨whole, p0⟩] S5000x128.size (by rfl) y

end Cert.Kernel.Hand

end
-- ==== Proof.KFrameBody.lean ====
/-
  The body of the region at one grid point, and the run of the whole program.

  At a point the body is handed the current staging buffers of the seven windows: three hold the blocks
  of the coordinate differences (dx, dy, dz), four are the result blocks.  It loads the three input
  blocks whole, computes, and stores each result block whole; the loads it makes of the result buffers
  before storing into them are never used.  So after the body each input buffer holds what it held and
  each result buffer holds the pointwise function of the three input blocks named in the host module.
-/
import proofs.«170533_j6313601925565_2_alg».proof.Proof.KFrameHost

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Cert.Kernel.Facts₀ Cert.Kernel.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body on whole staging memrefs: the three inputs at contents x0, x1, x2 and the four results at anything.
    It ends with the inputs as they were and each result at its function of the inputs. -/
theorem sound_kernel (c : Dev nD) (E : Set ℕ) (i : grid0.Coords)
    (a1 : Memref sig .tc .vmem S5000x128 .f32) (h1 : a1.IsWhole) (a2 : Memref sig .tc .vmem S5000x128 .f32) (h2 : a2.IsWhole)
    (a3 : Memref sig .tc .vmem S5000x128 .f32) (h3 : a3.IsWhole) (a4 : Memref sig .tc .vmem S5000x128 .f32) (h4 : a4.IsWhole)
    (a5 : Memref sig .tc .vmem S5000x128 .f32) (h5 : a5.IsWhole) (a6 : Memref sig .tc .vmem S5000x128 .f32) (h6 : a6.IsWhole)
    (a7 : Memref sig .tc .vmem S5000x128 .f32) (h7 : a7.IsWhole)
    (x0 x1 x2 : Vec F S5000x128 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d) ∗ (∃ d, owns (c : Thread nD τ) a5 fullShare d)
        ∗ (∃ d, owns (c : Thread nD τ) a6 fullShare d) ∗ (∃ d, owns (c : Thread nD τ) a7 fullShare d)
        ∗ (iprop(owns (c : Thread nD τ) a1 fullShare x0 ∗ owns (c : Thread nD τ) a2 fullShare x1 ∗ owns (c : Thread nD τ) a3 fullShare x2
            ∗ owns (c : Thread nD τ) a4 fullShare (out_energy x0 x1 x2) ∗ owns (c : Thread nD τ) a5 fullShare (out_fx x0 x1 x2)
            ∗ owns (c : Thread nD τ) a6 fullShare (out_fy x0 x1 x2) ∗ owns (c : Thread nD τ) a7 fullShare (out_fz x0 x1 x2)) -∗ K ⟨⟩))
      ⊢ wp frame (wpE (defs₀ (F := F)) Variants.none c none) E (cc0__harmonic_kernel i a1 h1 a2 h2 a3 h3 a4 h4 a5 h5 a6 h6 a7 h7) K := by
  simp only [cc0__harmonic_kernel_eq_skeleton]; unfold cc0__harmonic_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_whole _)
  isplitl [H4]
  · iexists _; isplitr
    swap; · iexact H4
    ipureintro
    exact View.read_writes_eq_canon _ _ _ (cover_whole _)
  isplitl [H5]
  · iexists _; isplitr
    swap; · iexact H5
    ipureintro
    exact View.read_writes_eq_canon _ _ _ (cover_whole _)
  iexists _; isplitr
  swap; · iexact H6
  ipureintro
  exact View.read_writes_eq_canon _ _ _ (cover_whole _)

end Cert.Kernel.Hand

end
-- ==== Proof.KFrameRun.lean ====
/-
  The run of the whole program from the body's behaviour at one point.

  The data of the region: its seven arrays as the host lines before it leave them; after the body at
  point t the three input buffers hold the blocks t of the difference arrays and the four result
  buffers hold the energy and force blocks computed from those three blocks.  With that, every weakly
  fair execution of the program terminates without a fault; at the end each array of the region holds
  what the write-backs of the five points left there, every other unscoped buffer what the host lines
  after the region compute from those, and the three arguments are untouched.
-/
import proofs.«170533_j6313601925565_2_alg».proof.Proof.KFrameBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Cert.Kernel.Facts₀ Cert.Kernel.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The data of the region on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out_energy (iblk m c 0 t) (iblk m c 1 t) (iblk m c 2 t)
    | ⟨4, _⟩ => out_fx (iblk m c 0 t) (iblk m c 1 t) (iblk m c 2 t)
    | ⟨5, _⟩ => out_fy (iblk m c 0 t) (iblk m c 1 t) (iblk m c 2 t)
    | ⟨6, _⟩ => out_fz (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = out_energy (iblk m c 0 t) (iblk m c 1 t) (iblk m c 2 t) := by dsimp only [dats]
theorem after4 (c : Dev nD) (t : Fin cfg0.N) : (dats m 0 c).after 4 t = out_fx (iblk m c 0 t) (iblk m c 1 t) (iblk m c 2 t) := by dsimp only [dats]
theorem after5 (c : Dev nD) (t : Fin cfg0.N) : (dats m 0 c).after 5 t = out_fy (iblk m c 0 t) (iblk m c 1 t) (iblk m c 2 t) := by dsimp only [dats]
theorem after6 (c : Dev nD) (t : Fin cfg0.N) : (dats m 0 c).after 6 t = out_fz (iblk m c 0 t) (iblk m c 1 t) (iblk m c 2 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d

/-- What the body is called with at point t. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program terminates; at the end every array of the region is at what the data
    compute and every other unscoped buffer is as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans
        ((tail_of_arg m (dats m) c main_arg0 hostOps1_keeps_arg0 (by decide)).trans (V_main_arg0 m c)),
     ((h c).2 main_arg1 (Pipeline.mem_restRefs_of main_arg1 (by decide) (by decide))).trans
        ((tail_of_arg m (dats m) c main_arg1 hostOps1_keeps_arg1 (by decide)).trans (V_main_arg1 m c)),
     ((h c).2 main_arg2 (Pipeline.mem_restRefs_of main_arg2 (by decide) (by decide))).trans
        ((tail_of_arg m (dats m) c main_arg2 hostOps1_keeps_arg2 (by decide)).trans (V_main_arg2 m c))⟩) (run_main m ρ)

end Cert.Kernel.Hand

end
-- ==== Proof.KIFrameHost.lean ====
/-
  The frame of the harmonic-lattice program, at any float instance.

  The program is: host operations that gather the three coordinate differences of every edge and lay
  them out as 25000 x 128 arrays; ONE region over a grid of 5 points, each point working on a block of
  5000 rows of the three difference arrays and writing a block of 5000 rows of four result arrays (the
  edge energy and the three force components); then host operations that scatter the results.

  What a point leaves in each result block is a pointwise function of the three input blocks at that
  point: the whole block stored by one store (out_energy, out_fx, out_fy, out_fz below).  The body
  reads nothing else and keeps nothing between points, so the invariant of the region is the plain
  one.  The host lines after the region write only their own result buffers, never an array of the
  region and never an argument; the host lines before the region likewise never write an argument.
  Hence every weakly fair execution terminates without a fault with the three argument arrays as
  they were launched.
-/
import proofs.«170533_j6313601925565_2_alg».proof.Proof.Gen.KernelIdeal.Launch
import proofs.«170533_j6313601925565_2_alg».proof.Proof.Gen.KernelIdeal.Skeleton
import proofs.«170533_j6313601925565_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Facts₀ Cert.KernelIdeal.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The buffers' contents on core c when the region is entered: the launch contents run through the host
    lines that precede the region. -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

/-- No host line allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the lines before the region, the region, the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch only unscoped buffers of the core. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- Each line after the region writes its own result buffer, which is none of the seven arrays of the region. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes,
    StableHlo.ternary_writes, StableHlo.reshape_writes, StableHlo.nary_writes, Finset.mem_singleton]
  repeat' apply And.intro
  all_goals intro w; fin_cases w <;> exact StableHlo.devRef_ne_of_ne (by decide)

theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp hostOps1_keeps) op hop

/-- No line before the region writes the reference b, when b is none of their result buffers. -/
theorem V_of_arg (c : Dev nD) (b : Ref sig .tc)
    (hb : (hostOps0 : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp (by
    simpa only [List.flatten_cons, List.flatten_nil, List.append_nil] using hb))

theorem hostOps0_keeps_arg0 : (hostOps0 : List (HloOp τ sig (Elt F))).Forall fun op => Proc.devRef .tc main_arg0 ∉ op.writes := by
  simp only [hostOps0, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)
theorem hostOps0_keeps_arg1 : (hostOps0 : List (HloOp τ sig (Elt F))).Forall fun op => Proc.devRef .tc main_arg1 ∉ op.writes := by
  simp only [hostOps0, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)
theorem hostOps0_keeps_arg2 : (hostOps0 : List (HloOp τ sig (Elt F))).Forall fun op => Proc.devRef .tc main_arg2 ∉ op.writes := by
  simp only [hostOps0, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)
theorem hostOps1_keeps_arg0 : (hostOps1 : List (HloOp τ sig (Elt F))).Forall fun op => Proc.devRef .tc main_arg0 ∉ op.writes := by
  simp only [hostOps1, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)
theorem hostOps1_keeps_arg1 : (hostOps1 : List (HloOp τ sig (Elt F))).Forall fun op => Proc.devRef .tc main_arg1 ∉ op.writes := by
  simp only [hostOps1, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)
theorem hostOps1_keeps_arg2 : (hostOps1 : List (HloOp τ sig (Elt F))).Forall fun op => Proc.devRef .tc main_arg2 ∉ op.writes := by
  simp only [hostOps1, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

/-- The region finds each argument array as launched. -/
theorem V_main_arg0 (c : Dev nD) : V m c main_arg0 = m ((c : Thread nD τ).loc main_arg0) := V_of_arg m c _ hostOps0_keeps_arg0
theorem V_main_arg1 (c : Dev nD) : V m c main_arg1 = m ((c : Thread nD τ).loc main_arg1) := V_of_arg m c _ hostOps0_keeps_arg1
theorem V_main_arg2 (c : Dev nD) : V m c main_arg2 = m ((c : Thread nD τ).loc main_arg2) := V_of_arg m c _ hostOps0_keeps_arg2

/-- A buffer b that is no array of the region and that no line after the region writes ends at its region-entry contents. -/
theorem tail_of_arg (dats : (p : Fin _) → (c : Dev nD) → Dat τ (Elt F) Unit ℕ (UR sig nD τ) ℕ (cfgs p) c) (c : Dev nD) (b : Ref sig .tc)
    (hb : (hostOps1 : List (HloOp τ sig (Elt F))).Forall fun op => Proc.devRef .tc b ∉ op.writes)
    (hne : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simpa only [List.flatten_cons, List.flatten_nil, List.append_nil] using hb)),
    Pipeline.withArrays_of_ne _ c (V0 m c) _ b hne]

/-! ## The blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What a point leaves in each result block -/

/-- The whole block, as a rectangle: every access of the body is through it. -/
abbrev whole : Rect S5000x128 := Rect.unit (s := S5000x128) ![0, 0] S5000x128.size Facts₀.inb_S5000x128_S5000x128_0_0

/-- The edge-energy block from the three difference blocks: the one store of the energy. -/
def out_energy (x0 x1 x2 : Vec F S5000x128 .f32) : Vec F S5000x128 .f32 :=
  View.canon [⟨whole, k0_pay6 (View.ld x0 whole) (View.ld x1 whole) (View.ld x2 whole)⟩]
/-- The block of the force's first component. -/
def out_fx (x0 x1 x2 : Vec F S5000x128 .f32) : Vec F S5000x128 .f32 :=
  View.canon [⟨whole, k0_pay8 (View.ld x0 whole) (View.ld x1 whole) (View.ld x2 whole)⟩]
/-- The block of the force's second component. -/
def out_fy (x0 x1 x2 : Vec F S5000x128 .f32) : Vec F S5000x128 .f32 :=
  View.canon [⟨whole, k0_pay9 (View.ld x0 whole) (View.ld x1 whole) (View.ld x2 whole)⟩]
/-- The block of the force's third component. -/
def out_fz (x0 x1 x2 : Vec F S5000x128 .f32) : Vec F S5000x128 .f32 :=
  View.canon [⟨whole, k0_pay10 (View.ld x0 whole) (View.ld x1 whole) (View.ld x2 whole)⟩]

/-- One store through the whole rectangle covers the block. -/
theorem cover_whole (p0 : Vec F S5000x128 .f32) (y : S5000x128.Idx) :
    ∃ pc ∈ ([⟨whole, p0⟩] : List (View.Piece (Elt F) S5000x128 .f32)), y ∈ pc.1.set :=
  View.cover_of_tiled [⟨whole, p0⟩] S5000x128.size (by rfl) y

end Cert.KernelIdeal.Hand

end
-- ==== Proof.KIFrameBody.lean ====
/-
  The body of the region at one grid point, and the run of the whole program.

  At a point the body is handed the current staging buffers of the seven windows: three hold the blocks
  of the coordinate differences (dx, dy, dz), four are the result blocks.  It loads the three input
  blocks whole, computes, and stores each result block whole; the loads it makes of the result buffers
  before storing into them are never used.  So after the body each input buffer holds what it held and
  each result buffer holds the pointwise function of the three input blocks named in the host module.
-/
import proofs.«170533_j6313601925565_2_alg».proof.Proof.KIFrameHost

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Facts₀ Cert.KernelIdeal.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body on whole staging memrefs: the three inputs at contents x0, x1, x2 and the four results at anything.
    It ends with the inputs as they were and each result at its function of the inputs. -/
theorem sound_kernel (c : Dev nD) (E : Set ℕ) (i : grid0.Coords)
    (a1 : Memref sig .tc .vmem S5000x128 .f32) (h1 : a1.IsWhole) (a2 : Memref sig .tc .vmem S5000x128 .f32) (h2 : a2.IsWhole)
    (a3 : Memref sig .tc .vmem S5000x128 .f32) (h3 : a3.IsWhole) (a4 : Memref sig .tc .vmem S5000x128 .f32) (h4 : a4.IsWhole)
    (a5 : Memref sig .tc .vmem S5000x128 .f32) (h5 : a5.IsWhole) (a6 : Memref sig .tc .vmem S5000x128 .f32) (h6 : a6.IsWhole)
    (a7 : Memref sig .tc .vmem S5000x128 .f32) (h7 : a7.IsWhole)
    (x0 x1 x2 : Vec F S5000x128 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d) ∗ (∃ d, owns (c : Thread nD τ) a5 fullShare d)
        ∗ (∃ d, owns (c : Thread nD τ) a6 fullShare d) ∗ (∃ d, owns (c : Thread nD τ) a7 fullShare d)
        ∗ (iprop(owns (c : Thread nD τ) a1 fullShare x0 ∗ owns (c : Thread nD τ) a2 fullShare x1 ∗ owns (c : Thread nD τ) a3 fullShare x2
            ∗ owns (c : Thread nD τ) a4 fullShare (out_energy x0 x1 x2) ∗ owns (c : Thread nD τ) a5 fullShare (out_fx x0 x1 x2)
            ∗ owns (c : Thread nD τ) a6 fullShare (out_fy x0 x1 x2) ∗ owns (c : Thread nD τ) a7 fullShare (out_fz x0 x1 x2)) -∗ K ⟨⟩))
      ⊢ wp frame (wpE (defs₀ (F := F)) Variants.none c none) E (cc0__harmonic_kernel i a1 h1 a2 h2 a3 h3 a4 h4 a5 h5 a6 h6 a7 h7) K := by
  simp only [cc0__harmonic_kernel_eq_skeleton]; unfold cc0__harmonic_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_whole _)
  isplitl [H4]
  · iexists _; isplitr
    swap; · iexact H4
    ipureintro
    exact View.read_writes_eq_canon _ _ _ (cover_whole _)
  isplitl [H5]
  · iexists _; isplitr
    swap; · iexact H5
    ipureintro
    exact View.read_writes_eq_canon _ _ _ (cover_whole _)
  iexists _; isplitr
  swap; · iexact H6
  ipureintro
  exact View.read_writes_eq_canon _ _ _ (cover_whole _)

end Cert.KernelIdeal.Hand

end
-- ==== Proof.KIFrameRun.lean ====
/-
  The run of the whole program from the body's behaviour at one point.

  The data of the region: its seven arrays as the host lines before it leave them; after the body at
  point t the three input buffers hold the blocks t of the difference arrays and the four result
  buffers hold the energy and force blocks computed from those three blocks.  With that, every weakly
  fair execution of the program terminates without a fault; at the end each array of the region holds
  what the write-backs of the five points left there, every other unscoped buffer what the host lines
  after the region compute from those, and the three arguments are untouched.
-/
import proofs.«170533_j6313601925565_2_alg».proof.Proof.KIFrameBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Facts₀ Cert.KernelIdeal.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The data of the region on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out_energy (iblk m c 0 t) (iblk m c 1 t) (iblk m c 2 t)
    | ⟨4, _⟩ => out_fx (iblk m c 0 t) (iblk m c 1 t) (iblk m c 2 t)
    | ⟨5, _⟩ => out_fy (iblk m c 0 t) (iblk m c 1 t) (iblk m c 2 t)
    | ⟨6, _⟩ => out_fz (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = out_energy (iblk m c 0 t) (iblk m c 1 t) (iblk m c 2 t) := by dsimp only [dats]
theorem after4 (c : Dev nD) (t : Fin cfg0.N) : (dats m 0 c).after 4 t = out_fx (iblk m c 0 t) (iblk m c 1 t) (iblk m c 2 t) := by dsimp only [dats]
theorem after5 (c : Dev nD) (t : Fin cfg0.N) : (dats m 0 c).after 5 t = out_fy (iblk m c 0 t) (iblk m c 1 t) (iblk m c 2 t) := by dsimp only [dats]
theorem after6 (c : Dev nD) (t : Fin cfg0.N) : (dats m 0 c).after 6 t = out_fz (iblk m c 0 t) (iblk m c 1 t) (iblk m c 2 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d

/-- What the body is called with at point t. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program terminates; at the end every array of the region is at what the data
    compute and every other unscoped buffer is as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans
        ((tail_of_arg m (dats m) c main_arg0 hostOps1_keeps_arg0 (by decide)).trans (V_main_arg0 m c)),
     ((h c).2 main_arg1 (Pipeline.mem_restRefs_of main_arg1 (by decide) (by decide))).trans
        ((tail_of_arg m (dats m) c main_arg1 hostOps1_keeps_arg1 (by decide)).trans (V_main_arg1 m c)),
     ((h c).2 main_arg2 (Pipeline.mem_restRefs_of main_arg2 (by decide) (by decide))).trans
        ((tail_of_arg m (dats m) c main_arg2 hostOps1_keeps_arg2 (by decide)).trans (V_main_arg2 m c))⟩) (run_main m ρ)

end Cert.KernelIdeal.Hand

end
-- ==== Proof.KIValueHost.lean ====
/-
  The host lines read as values: what the region finds in its three input arrays, and what the lines
  after the region make of its four result arrays.

  Before the region: row 0 and row 1 of the edge list give the two endpoints of every edge; a negative
  endpoint is wrapped by adding the number of nodes; each coordinate column of the positions is gathered
  at both endpoints and subtracted; the three difference columns are laid out as 25000 x 128.
  After the region: the four result arrays are flattened back to one entry per edge; the energies are
  scatter-added into 64 buckets by the graph number of the first endpoint; the three force columns are
  put side by side and scatter-added into the rows of the first endpoints (negated) and of the second.
-/
import Idealize.ShloMosaic.Lib.StableHlo.Run
import proofs.«170533_j6313601925565_2_alg».proof.Proof.KIFrameRun

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.StableHlo

/-! ## The pieces of the host computation -/

/-- Row r of the edge list as a flat array: the first (r = 0) or second (r = 1) endpoints. -/
def endpoints0 (x1 : (⟨S2x3200000, .i32⟩ : BufTy).Contents (Elt F)) : (⟨S3200000, .i32⟩ : BufTy).Contents (Elt F) :=
  shapeCast _ (extractStridedSlice S1x3200000 ![0, 0] x1 slices_S2x3200000_S1x3200000_0_0) shapeCasts_S1x3200000_S3200000
def endpoints1 (x1 : (⟨S2x3200000, .i32⟩ : BufTy).Contents (Elt F)) : (⟨S3200000, .i32⟩ : BufTy).Contents (Elt F) :=
  shapeCast _ (extractStridedSlice S1x3200000 ![1, 0] x1 slices_S2x3200000_S1x3200000_1_0) shapeCasts_S1x3200000_S3200000

/-- A negative node index wrapped by adding the number of nodes, then laid out as a column of start indices. -/
def startsOf (i : (⟨S3200000, .i32⟩ : BufTy).Contents (Elt F)) : (⟨S3200000x1, .i32⟩ : BufTy).Contents (Elt F) :=
  broadcastInDim S3200000x1 ![0] bcast_S3200000_S3200000x1_0
    (select (cmpi .slt i (broadcastInDim S3200000 ![] bcast_S_S3200000 (constantI S_ 32 0#32)))
      (addi i (broadcastInDim S3200000 ![] bcast_S_S3200000 (constantI S_ 32 100000#32))) i)

/-- Column k of the positions as a flat array. -/
def posCol0 (x0 : (⟨S100000x3, .f32⟩ : BufTy).Contents (Elt F)) : (⟨S100000, .f32⟩ : BufTy).Contents (Elt F) :=
  shapeCast _ (extractStridedSlice S100000x1 ![0, 0] x0 slices_S100000x3_S100000x1_0_0) shapeCasts_S100000x1_S100000
def posCol1 (x0 : (⟨S100000x3, .f32⟩ : BufTy).Contents (Elt F)) : (⟨S100000, .f32⟩ : BufTy).Contents (Elt F) :=
  shapeCast _ (extractStridedSlice S100000x1 ![0, 1] x0 slices_S100000x3_S100000x1_0_1) shapeCasts_S100000x1_S100000
def posCol2 (x0 : (⟨S100000x3, .f32⟩ : BufTy).Contents (Elt F)) : (⟨S100000, .f32⟩ : BufTy).Contents (Elt F) :=
  shapeCast _ (extractStridedSlice S100000x1 ![0, 2] x0 slices_S100000x3_S100000x1_0_2) shapeCasts_S100000x1_S100000

/-- A coordinate column gathered at the first endpoints minus the same at the second endpoints: one entry per edge. -/
def diffOf (p : (⟨S100000, .f32⟩ : BufTy).Contents (Elt F)) (x1 : (⟨S2x3200000, .i32⟩ : BufTy).Contents (Elt F)) :
    (⟨S3200000, .f32⟩ : BufTy).Contents (Elt F) :=
  subf (Host.gather gather_S100000_S3200000x1_S3200000_n_0_n_n_0_1_1 p (startsOf (endpoints0 x1)))
    (Host.gather gather_S100000_S3200000x1_S3200000_n_0_n_n_0_1_1 p (startsOf (endpoints1 x1)))

/-! ## What the region finds -/

theorem V_v55 (c : Dev nD) : V m c main_v55
    = shapeCast _ (diffOf (posCol0 (m ((c : Thread nD τ).loc main_arg0))) (m ((c : Thread nD τ).loc main_arg1))) shapeCasts_S3200000_S25000x128 := by
  show StableHlo.after hostOps0 (fun b => m (c, b)) (Proc.devRef .tc main_v55) = _
  after_results_simp
  rfl
theorem V_v56 (c : Dev nD) : V m c main_v56
    = shapeCast _ (diffOf (posCol1 (m ((c : Thread nD τ).loc main_arg0))) (m ((c : Thread nD τ).loc main_arg1))) shapeCasts_S3200000_S25000x128 := by
  show StableHlo.after hostOps0 (fun b => m (c, b)) (Proc.devRef .tc main_v56) = _
  after_results_simp
  rfl
theorem V_v57 (c : Dev nD) : V m c main_v57
    = shapeCast _ (diffOf (posCol2 (m ((c : Thread nD τ).loc main_arg0))) (m ((c : Thread nD τ).loc main_arg1))) shapeCasts_S3200000_S25000x128 := by
  show StableHlo.after hostOps0 (fun b => m (c, b)) (Proc.devRef .tc main_v57) = _
  after_results_simp
  rfl
theorem V_v1 (c : Dev nD) : V m c main_v1 = endpoints0 (m ((c : Thread nD τ).loc main_arg1)) := by
  show StableHlo.after hostOps0 (fun b => m (c, b)) (Proc.devRef .tc main_v1) = _
  after_results_simp
  rfl
theorem V_v3 (c : Dev nD) : V m c main_v3 = endpoints1 (m ((c : Thread nD τ).loc main_arg1)) := by
  show StableHlo.after hostOps0 (fun b => m (c, b)) (Proc.devRef .tc main_v3) = _
  after_results_simp
  rfl

/-! ## What the lines after the region compute -/

/-- The energies per graph from the per-edge energies laid out as 25000 x 128. -/
def energyTail (x1 : (⟨S2x3200000, .i32⟩ : BufTy).Contents (Elt F)) (x2 : (⟨S100000, .i32⟩ : BufTy).Contents (Elt F))
    (e : (⟨S25000x128, .f32⟩ : BufTy).Contents (Elt F)) : (⟨S64, .f32⟩ : BufTy).Contents (Elt F) :=
  Host.scatterAdd scatter_S64_S3200000x1_S3200000_n_0_0_1
    (broadcastInDim S64 ![] bcast_S_S64 (constant S_ .f32 0x00000000#32))
    (broadcastInDim S3200000x1 ![0] bcast_S3200000_S3200000x1_0
      (Host.gather gather_S100000_S3200000x1_S3200000_n_0_n_n_0_1_1 x2 (startsOf (endpoints0 x1))))
    (shapeCast _ e shapeCasts_S25000x128_S3200000)

/-- The three force columns side by side: one row per edge. -/
def forceRows (fx fy fz : (⟨S25000x128, .f32⟩ : BufTy).Contents (Elt F)) : (⟨S3200000x3, .f32⟩ : BufTy).Contents (Elt F) :=
  concatenate S3200000x3 1
    [⟨S3200000x1, broadcastInDim S3200000x1 ![0] bcast_S3200000_S3200000x1_0 (shapeCast _ fx shapeCasts_S25000x128_S3200000)⟩,
     ⟨S3200000x1, broadcastInDim S3200000x1 ![0] bcast_S3200000_S3200000x1_0 (shapeCast _ fy shapeCasts_S25000x128_S3200000)⟩,
     ⟨S3200000x1, broadcastInDim S3200000x1 ![0] bcast_S3200000_S3200000x1_0 (shapeCast _ fz shapeCasts_S25000x128_S3200000)⟩]
    concatenates_S3200000x1_S3200000x1_S3200000x1_S3200000x3_d1

/-- The forces per node from the per-edge force rows: minus at the first endpoint, plus at the second. -/
def forceTail (x1 : (⟨S2x3200000, .i32⟩ : BufTy).Contents (Elt F)) (u : (⟨S3200000x3, .f32⟩ : BufTy).Contents (Elt F)) :
    (⟨S100000x3, .f32⟩ : BufTy).Contents (Elt F) :=
  Host.scatterAdd scatter_S100000x3_S3200000x1_S3200000x3_1_0_0_1
    (Host.scatterAdd scatter_S100000x3_S3200000x1_S3200000x3_1_0_0_1
      (broadcastInDim S100000x3 ![] bcast_S_S100000x3 (constant S_ .f32 0x00000000#32))
      (startsOf (endpoints0 x1)) (Host.negf u))
    (startsOf (endpoints1 x1)) u

end Cert.KernelIdeal.Hand

end
-- ==== Proof.KIValueEdge.lean ====
/-
  One edge: the length of its difference vector, its stretch, its energy and the factor of its force, and
  the fact that the body's stored values at a position of the block are these functions of the three
  differences at that position.
-/
import Idealize.ShloMosaic.Lib.Pipeline.Value
import proofs.«170533_j6313601925565_2_alg».proof.Proof.KIFrameRun

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Facts₀ Cert.KernelIdeal.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The whole rectangle starts at the origin. -/
theorem origin : (![0, 0] : Fin 2 → Nat) = fun _ => 0 := funext fun a => by fin_cases a <;> rfl

/-! ## One edge -/

/-- The length of the difference vector (a, b, c). -/
def len (a b c : Elt F .f32) : Elt F .f32 :=
  FloatOps.sqrt (FloatOps.addf (FloatOps.addf (FloatOps.mulf a a) (FloatOps.mulf b b)) (FloatOps.mulf c c))
/-- Its excess over the rest length 1. -/
def stretch (a b c : Elt F .f32) : Elt F .f32 := FloatOps.subf (len a b c) (Scalar.ofBits .f32 0x3F800000#32)
/-- The edge's energy, (1/2 * stretch) * stretch. -/
def edgeEnergy (a b c : Elt F .f32) : Elt F .f32 :=
  FloatOps.mulf (FloatOps.mulf (Scalar.ofBits .f32 0x3F000000#32) (stretch a b c)) (stretch a b c)
/-- The factor of the force: (1 * stretch) * (1 / (length + guard)). -/
def edgeScale (a b c : Elt F .f32) : Elt F .f32 :=
  FloatOps.mulf (FloatOps.mulf (Scalar.ofBits .f32 0x3F800000#32) (stretch a b c))
    (FloatOps.divf (Scalar.ofBits .f32 0x3F800000#32) (FloatOps.addf (len a b c) (Scalar.ofBits .f32 0x1E3CE508#32)))

/-- The body's values at a position of the block are these functions of the three differences there. -/
theorem pay6_apply (x0 x1 x2 : Vec F S5000x128 .f32) (j : S5000x128.Idx) :
    k0_pay6 x0 x1 x2 j = edgeEnergy (x0 j) (x1 j) (x2 j) := by
  unfold k0_pay6 k0_pay5 k0_pay4 k0_pay1 k0_pay2 k0_pay3
  simp only [shapeCast_self]
  rfl
theorem pay7_apply (x0 x1 x2 : Vec F S5000x128 .f32) (j : S5000x128.Idx) :
    k0_pay7 x0 x1 x2 j = edgeScale (x0 j) (x1 j) (x2 j) := by
  unfold k0_pay7 k0_pay5 k0_pay4 k0_pay1 k0_pay2 k0_pay3
  simp only [shapeCast_self]
  rfl
theorem pay8_apply (x0 x1 x2 : Vec F S5000x128 .f32) (j : S5000x128.Idx) :
    k0_pay8 x0 x1 x2 j = FloatOps.mulf (edgeScale (x0 j) (x1 j) (x2 j)) (x0 j) := by
  unfold k0_pay8; rw [← pay7_apply]; unfold k0_pay1; simp only [shapeCast_self]; rfl
theorem pay9_apply (x0 x1 x2 : Vec F S5000x128 .f32) (j : S5000x128.Idx) :
    k0_pay9 x0 x1 x2 j = FloatOps.mulf (edgeScale (x0 j) (x1 j) (x2 j)) (x1 j) := by
  unfold k0_pay9; rw [← pay7_apply]; unfold k0_pay2; simp only [shapeCast_self]; rfl
theorem pay10_apply (x0 x1 x2 : Vec F S5000x128 .f32) (j : S5000x128.Idx) :
    k0_pay10 x0 x1 x2 j = FloatOps.mulf (edgeScale (x0 j) (x1 j) (x2 j)) (x2 j) := by
  unfold k0_pay10; rw [← pay7_apply]; unfold k0_pay3; simp only [shapeCast_self]; rfl

end Cert.KernelIdeal.Hand

end
-- ==== Proof.KIValueBlocks.lean ====
/-
  From blocks to arrays: what the four result arrays hold when the region ends.

  Every window of the region has the same index map: point t works on rows 5000 t to 5000 t + 4999 of its
  array, all 128 columns.  So the block a point writes back into a result array sits exactly over the
  blocks it read from the three difference arrays, and what it writes at a position is a function of the
  three differences at that same position.  The five blocks tile the 25000 rows, hence each result array
  ends as ONE pointwise function of the three difference arrays: the edge energy, and the force
  components scale * dx, scale * dy, scale * dz.
-/
import Idealize.ShloMosaic.Lib.Pipeline.Value
import proofs.«170533_j6313601925565_2_alg».proof.Proof.KIValueEdge

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Facts₀ Cert.KernelIdeal.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The whole arrays -/

/-- The energy array from the three difference arrays. -/
abbrev GE (a0 a1 a2 : S25000x128.Idx → Elt F .f32) : S25000x128.Idx → Elt F .f32 := fun i => edgeEnergy (a0 i) (a1 i) (a2 i)
/-- The force arrays. -/
abbrev GX (a0 a1 a2 : S25000x128.Idx → Elt F .f32) : S25000x128.Idx → Elt F .f32 := fun i => FloatOps.mulf (edgeScale (a0 i) (a1 i) (a2 i)) (a0 i)
abbrev GY (a0 a1 a2 : S25000x128.Idx → Elt F .f32) : S25000x128.Idx → Elt F .f32 := fun i => FloatOps.mulf (edgeScale (a0 i) (a1 i) (a2 i)) (a1 i)
abbrev GZ (a0 a1 a2 : S25000x128.Idx → Elt F .f32) : S25000x128.Idx → Elt F .f32 := fun i => FloatOps.mulf (edgeScale (a0 i) (a1 i) (a2 i)) (a2 i)

/-- All seven index maps send point t to block row t, block column 0. -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

/-! ## The energy array (window 3) -/

set_option maxHeartbeats 1000000 in
/-- What point t writes back is block t of the whole-array function. -/
theorem flushed3_eq (c : Dev nD) (t : Fin cfg0.N) :
    (dats m 0 c).flushed 3 t = ((cfg0.win 3).blk t).view.read (Elt F) (GE (V m c main_v55) (V m c main_v56) (V m c main_v57)) := by
  show (cfg0.win 3).cut (grid0.coords t) ((dats m 0 c).after 3 t) = _
  rw [after3]
  unfold out_energy
  rw [View.canon_unit_zero origin]
  simp only [View.ld_unit_zero (S := S5000x128) origin]
  funext j
  show k0_pay6 (iblk m c 0 t) (iblk m c 1 t) (iblk m c 2 t) ((win0 3).xinj (grid0.coords t) j)
    = GE (V m c main_v55) (V m c main_v56) (V m c main_v57) (((cfg0.win 3).blk t).view.emb j)
  rw [pay6_apply]
  obtain ⟨e0, e1, e2, e3, e4, e5, e6⟩ := index_facts t
  show edgeEnergy (V m c main_v55 (((cfg0.win 0).blk t).view.emb j)) (V m c main_v56 (((cfg0.win 1).blk t).view.emb j)) (V m c main_v57 (((cfg0.win 2).blk t).view.emb j))
    = edgeEnergy (V m c main_v55 (((cfg0.win 3).blk t).view.emb j)) (V m c main_v56 (((cfg0.win 3).blk t).view.emb j)) (V m c main_v57 (((cfg0.win 3).blk t).view.emb j))
  have h0 : ((cfg0.win 0).blk t).view.emb j = ((cfg0.win 3).blk t).view.emb j := by
    funext a; apply Fin.ext
    match a with
    | ⟨0, _⟩ => show win0_0.index t (0 : Fin 2) * 5000 + 1 * (j 0).val = win0_3.index t (0 : Fin 2) * 5000 + 1 * (j 0).val; rw [(e0).1, (e3).1]
    | ⟨1, _⟩ => show win0_0.index t (1 : Fin 2) * 128 + 1 * (j 1).val = win0_3.index t (1 : Fin 2) * 128 + 1 * (j 1).val; rw [(e0).2, (e3).2]
  have h1 : ((cfg0.win 1).blk t).view.emb j = ((cfg0.win 3).blk t).view.emb j := by
    funext a; apply Fin.ext
    match a with
    | ⟨0, _⟩ => show win0_1.index t (0 : Fin 2) * 5000 + 1 * (j 0).val = win0_3.index t (0 : Fin 2) * 5000 + 1 * (j 0).val; rw [(e1).1, (e3).1]
    | ⟨1, _⟩ => show win0_1.index t (1 : Fin 2) * 128 + 1 * (j 1).val = win0_3.index t (1 : Fin 2) * 128 + 1 * (j 1).val; rw [(e1).2, (e3).2]
  have h2 : ((cfg0.win 2).blk t).view.emb j = ((cfg0.win 3).blk t).view.emb j := by
    funext a; apply Fin.ext
    match a with
    | ⟨0, _⟩ => show win0_2.index t (0 : Fin 2) * 5000 + 1 * (j 0).val = win0_3.index t (0 : Fin 2) * 5000 + 1 * (j 0).val; rw [(e2).1, (e3).1]
    | ⟨1, _⟩ => show win0_2.index t (1 : Fin 2) * 128 + 1 * (j 1).val = win0_3.index t (1 : Fin 2) * 128 + 1 * (j 1).val; rw [(e2).2, (e3).2]
  rw [h0, h1, h2]

/-- An index of the array is in point t's block iff each coordinate is in the block's range. -/
theorem mem_blk3 (t : Fin cfg0.N) (i : S25000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v58_0).slice (win0_3.rect t)).set ↔ _
  rw [View.set_slice_whole, Rect.mem_set_unit]
  exact Iff.rfl

/-- The blocks tile the array: row r is in the block of point r / 5000. -/
theorem cover3 (i : S25000x128.Idx) : ∃ t : Fin cfg0.N, (cfg0.win 3).flush t = true ∧ i ∈ ((cfg0.win 3).blk t).view.set := by
  have hi0 : (i 0).val < 25000 := (i 0).isLt
  have hi1 : (i 1).val < 128 := (i 1).isLt
  have hN : (i 0).val / 5000 < cfg0.N := by rw [show cfg0.N = 5 from N_0]; omega
  refine ⟨⟨(i 0).val / 5000, hN⟩, flush0_3 _, ?_⟩
  rw [mem_blk3]
  obtain ⟨e0, e1, e2, e3, e4, e5, e6⟩ := index_facts ⟨(i 0).val / 5000, hN⟩
  intro a
  match a with
  | ⟨0, _⟩ => show win0_3.index ⟨(i 0).val / 5000, hN⟩ (0 : Fin 2) * 5000 ≤ (i 0).val ∧ (i 0).val < win0_3.index ⟨(i 0).val / 5000, hN⟩ (0 : Fin 2) * 5000 + 5000; rw [(e3).1]; show (i 0).val / 5000 * 5000 ≤ (i 0).val ∧ (i 0).val < (i 0).val / 5000 * 5000 + 5000; omega
  | ⟨1, _⟩ => show win0_3.index ⟨(i 0).val / 5000, hN⟩ (1 : Fin 2) * 128 ≤ (i 1).val ∧ (i 1).val < win0_3.index ⟨(i 0).val / 5000, hN⟩ (1 : Fin 2) * 128 + 128; rw [(e3).2]; omega

/-- The energy array when the region ends. -/
theorem final3 (c : Dev nD) : (dats m 0 c).arrAt 3 cfg0.N = GE (V m c main_v55) (V m c main_v56) (V m c main_v57) :=
  (dats m 0 c).arrAt_eq_of_cover 3 _ (fun t _ => flushed3_eq m c t) (cover3)

/-! ## The fx array (window 4) -/

set_option maxHeartbeats 1000000 in
/-- What point t writes back is block t of the whole-array function. -/
theorem flushed4_eq (c : Dev nD) (t : Fin cfg0.N) :
    (dats m 0 c).flushed 4 t = ((cfg0.win 4).blk t).view.read (Elt F) (GX (V m c main_v55) (V m c main_v56) (V m c main_v57)) := by
  show (cfg0.win 4).cut (grid0.coords t) ((dats m 0 c).after 4 t) = _
  rw [after4]
  unfold out_fx
  rw [View.canon_unit_zero origin]
  simp only [View.ld_unit_zero (S := S5000x128) origin]
  funext j
  show k0_pay8 (iblk m c 0 t) (iblk m c 1 t) (iblk m c 2 t) ((win0 4).xinj (grid0.coords t) j)
    = GX (V m c main_v55) (V m c main_v56) (V m c main_v57) (((cfg0.win 4).blk t).view.emb j)
  rw [pay8_apply]
  obtain ⟨e0, e1, e2, e3, e4, e5, e6⟩ := index_facts t
  show FloatOps.mulf (edgeScale (V m c main_v55 (((cfg0.win 0).blk t).view.emb j)) (V m c main_v56 (((cfg0.win 1).blk t).view.emb j)) (V m c main_v57 (((cfg0.win 2).blk t).view.emb j))) (V m c main_v55 (((cfg0.win 0).blk t).view.emb j))
    = FloatOps.mulf (edgeScale (V m c main_v55 (((cfg0.win 4).blk t).view.emb j)) (V m c main_v56 (((cfg0.win 4).blk t).view.emb j)) (V m c main_v57 (((cfg0.win 4).blk t).view.emb j))) (V m c main_v55 (((cfg0.win 4).blk t).view.emb j))
  have h0 : ((cfg0.win 0).blk t).view.emb j = ((cfg0.win 4).blk t).view.emb j := by
    funext a; apply Fin.ext
    match a with
    | ⟨0, _⟩ => show win0_0.index t (0 : Fin 2) * 5000 + 1 * (j 0).val = win0_4.index t (0 : Fin 2) * 5000 + 1 * (j 0).val; rw [(e0).1, (e4).1]
    | ⟨1, _⟩ => show win0_0.index t (1 : Fin 2) * 128 + 1 * (j 1).val = win0_4.index t (1 : Fin 2) * 128 + 1 * (j 1).val; rw [(e0).2, (e4).2]
  have h1 : ((cfg0.win 1).blk t).view.emb j = ((cfg0.win 4).blk t).view.emb j := by
    funext a; apply Fin.ext
    match a with
    | ⟨0, _⟩ => show win0_1.index t (0 : Fin 2) * 5000 + 1 * (j 0).val = win0_4.index t (0 : Fin 2) * 5000 + 1 * (j 0).val; rw [(e1).1, (e4).1]
    | ⟨1, _⟩ => show win0_1.index t (1 : Fin 2) * 128 + 1 * (j 1).val = win0_4.index t (1 : Fin 2) * 128 + 1 * (j 1).val; rw [(e1).2, (e4).2]
  have h2 : ((cfg0.win 2).blk t).view.emb j = ((cfg0.win 4).blk t).view.emb j := by
    funext a; apply Fin.ext
    match a with
    | ⟨0, _⟩ => show win0_2.index t (0 : Fin 2) * 5000 + 1 * (j 0).val = win0_4.index t (0 : Fin 2) * 5000 + 1 * (j 0).val; rw [(e2).1, (e4).1]
    | ⟨1, _⟩ => show win0_2.index t (1 : Fin 2) * 128 + 1 * (j 1).val = win0_4.index t (1 : Fin 2) * 128 + 1 * (j 1).val; rw [(e2).2, (e4).2]
  rw [h0, h1, h2]

/-- An index of the array is in point t's block iff each coordinate is in the block's range. -/
theorem mem_blk4 (t : Fin cfg0.N) (i : S25000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v58_1).slice (win0_4.rect t)).set ↔ _
  rw [View.set_slice_whole, Rect.mem_set_unit]
  exact Iff.rfl

/-- The blocks tile the array: row r is in the block of point r / 5000. -/
theorem cover4 (i : S25000x128.Idx) : ∃ t : Fin cfg0.N, (cfg0.win 4).flush t = true ∧ i ∈ ((cfg0.win 4).blk t).view.set := by
  have hi0 : (i 0).val < 25000 := (i 0).isLt
  have hi1 : (i 1).val < 128 := (i 1).isLt
  have hN : (i 0).val / 5000 < cfg0.N := by rw [show cfg0.N = 5 from N_0]; omega
  refine ⟨⟨(i 0).val / 5000, hN⟩, flush0_4 _, ?_⟩
  rw [mem_blk4]
  obtain ⟨e0, e1, e2, e3, e4, e5, e6⟩ := index_facts ⟨(i 0).val / 5000, hN⟩
  intro a
  match a with
  | ⟨0, _⟩ => show win0_4.index ⟨(i 0).val / 5000, hN⟩ (0 : Fin 2) * 5000 ≤ (i 0).val ∧ (i 0).val < win0_4.index ⟨(i 0).val / 5000, hN⟩ (0 : Fin 2) * 5000 + 5000; rw [(e4).1]; show (i 0).val / 5000 * 5000 ≤ (i 0).val ∧ (i 0).val < (i 0).val / 5000 * 5000 + 5000; omega
  | ⟨1, _⟩ => show win0_4.index ⟨(i 0).val / 5000, hN⟩ (1 : Fin 2) * 128 ≤ (i 1).val ∧ (i 1).val < win0_4.index ⟨(i 0).val / 5000, hN⟩ (1 : Fin 2) * 128 + 128; rw [(e4).2]; omega

/-- The fx array when the region ends. -/
theorem final4 (c : Dev nD) : (dats m 0 c).arrAt 4 cfg0.N = GX (V m c main_v55) (V m c main_v56) (V m c main_v57) :=
  (dats m 0 c).arrAt_eq_of_cover 4 _ (fun t _ => flushed4_eq m c t) (cover4)

/-! ## The fy array (window 5) -/

set_option maxHeartbeats 1000000 in
/-- What point t writes back is block t of the whole-array function. -/
theorem flushed5_eq (c : Dev nD) (t : Fin cfg0.N) :
    (dats m 0 c).flushed 5 t = ((cfg0.win 5).blk t).view.read (Elt F) (GY (V m c main_v55) (V m c main_v56) (V m c main_v57)) := by
  show (cfg0.win 5).cut (grid0.coords t) ((dats m 0 c).after 5 t) = _
  rw [after5]
  unfold out_fy
  rw [View.canon_unit_zero origin]
  simp only [View.ld_unit_zero (S := S5000x128) origin]
  funext j
  show k0_pay9 (iblk m c 0 t) (iblk m c 1 t) (iblk m c 2 t) ((win0 5).xinj (grid0.coords t) j)
    = GY (V m c main_v55) (V m c main_v56) (V m c main_v57) (((cfg0.win 5).blk t).view.emb j)
  rw [pay9_apply]
  obtain ⟨e0, e1, e2, e3, e4, e5, e6⟩ := index_facts t
  show FloatOps.mulf (edgeScale (V m c main_v55 (((cfg0.win 0).blk t).view.emb j)) (V m c main_v56 (((cfg0.win 1).blk t).view.emb j)) (V m c main_v57 (((cfg0.win 2).blk t).view.emb j))) (V m c main_v56 (((cfg0.win 1).blk t).view.emb j))
    = FloatOps.mulf (edgeScale (V m c main_v55 (((cfg0.win 5).blk t).view.emb j)) (V m c main_v56 (((cfg0.win 5).blk t).view.emb j)) (V m c main_v57 (((cfg0.win 5).blk t).view.emb j))) (V m c main_v56 (((cfg0.win 5).blk t).view.emb j))
  have h0 : ((cfg0.win 0).blk t).view.emb j = ((cfg0.win 5).blk t).view.emb j := by
    funext a; apply Fin.ext
    match a with
    | ⟨0, _⟩ => show win0_0.index t (0 : Fin 2) * 5000 + 1 * (j 0).val = win0_5.index t (0 : Fin 2) * 5000 + 1 * (j 0).val; rw [(e0).1, (e5).1]
    | ⟨1, _⟩ => show win0_0.index t (1 : Fin 2) * 128 + 1 * (j 1).val = win0_5.index t (1 : Fin 2) * 128 + 1 * (j 1).val; rw [(e0).2, (e5).2]
  have h1 : ((cfg0.win 1).blk t).view.emb j = ((cfg0.win 5).blk t).view.emb j := by
    funext a; apply Fin.ext
    match a with
    | ⟨0, _⟩ => show win0_1.index t (0 : Fin 2) * 5000 + 1 * (j 0).val = win0_5.index t (0 : Fin 2) * 5000 + 1 * (j 0).val; rw [(e1).1, (e5).1]
    | ⟨1, _⟩ => show win0_1.index t (1 : Fin 2) * 128 + 1 * (j 1).val = win0_5.index t (1 : Fin 2) * 128 + 1 * (j 1).val; rw [(e1).2, (e5).2]
  have h2 : ((cfg0.win 2).blk t).view.emb j = ((cfg0.win 5).blk t).view.emb j := by
    funext a; apply Fin.ext
    match a with
    | ⟨0, _⟩ => show win0_2.index t (0 : Fin 2) * 5000 + 1 * (j 0).val = win0_5.index t (0 : Fin 2) * 5000 + 1 * (j 0).val; rw [(e2).1, (e5).1]
    | ⟨1, _⟩ => show win0_2.index t (1 : Fin 2) * 128 + 1 * (j 1).val = win0_5.index t (1 : Fin 2) * 128 + 1 * (j 1).val; rw [(e2).2, (e5).2]
  rw [h0, h1, h2]

/-- An index of the array is in point t's block iff each coordinate is in the block's range. -/
theorem mem_blk5 (t : Fin cfg0.N) (i : S25000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v58_2).slice (win0_5.rect t)).set ↔ _
  rw [View.set_slice_whole, Rect.mem_set_unit]
  exact Iff.rfl

/-- The blocks tile the array: row r is in the block of point r / 5000. -/
theorem cover5 (i : S25000x128.Idx) : ∃ t : Fin cfg0.N, (cfg0.win 5).flush t = true ∧ i ∈ ((cfg0.win 5).blk t).view.set := by
  have hi0 : (i 0).val < 25000 := (i 0).isLt
  have hi1 : (i 1).val < 128 := (i 1).isLt
  have hN : (i 0).val / 5000 < cfg0.N := by rw [show cfg0.N = 5 from N_0]; omega
  refine ⟨⟨(i 0).val / 5000, hN⟩, flush0_5 _, ?_⟩
  rw [mem_blk5]
  obtain ⟨e0, e1, e2, e3, e4, e5, e6⟩ := index_facts ⟨(i 0).val / 5000, hN⟩
  intro a
  match a with
  | ⟨0, _⟩ => show win0_5.index ⟨(i 0).val / 5000, hN⟩ (0 : Fin 2) * 5000 ≤ (i 0).val ∧ (i 0).val < win0_5.index ⟨(i 0).val / 5000, hN⟩ (0 : Fin 2) * 5000 + 5000; rw [(e5).1]; show (i 0).val / 5000 * 5000 ≤ (i 0).val ∧ (i 0).val < (i 0).val / 5000 * 5000 + 5000; omega
  | ⟨1, _⟩ => show win0_5.index ⟨(i 0).val / 5000, hN⟩ (1 : Fin 2) * 128 ≤ (i 1).val ∧ (i 1).val < win0_5.index ⟨(i 0).val / 5000, hN⟩ (1 : Fin 2) * 128 + 128; rw [(e5).2]; omega

/-- The fy array when the region ends. -/
theorem final5 (c : Dev nD) : (dats m 0 c).arrAt 5 cfg0.N = GY (V m c main_v55) (V m c main_v56) (V m c main_v57) :=
  (dats m 0 c).arrAt_eq_of_cover 5 _ (fun t _ => flushed5_eq m c t) (cover5)

/-! ## The fz array (window 6) -/

set_option maxHeartbeats 1000000 in
/-- What point t writes back is block t of the whole-array function. -/
theorem flushed6_eq (c : Dev nD) (t : Fin cfg0.N) :
    (dats m 0 c).flushed 6 t = ((cfg0.win 6).blk t).view.read (Elt F) (GZ (V m c main_v55) (V m c main_v56) (V m c main_v57)) := by
  show (cfg0.win 6).cut (grid0.coords t) ((dats m 0 c).after 6 t) = _
  rw [after6]
  unfold out_fz
  rw [View.canon_unit_zero origin]
  simp only [View.ld_unit_zero (S := S5000x128) origin]
  funext j
  show k0_pay10 (iblk m c 0 t) (iblk m c 1 t) (iblk m c 2 t) ((win0 6).xinj (grid0.coords t) j)
    = GZ (V m c main_v55) (V m c main_v56) (V m c main_v57) (((cfg0.win 6).blk t).view.emb j)
  rw [pay10_apply]
  obtain ⟨e0, e1, e2, e3, e4, e5, e6⟩ := index_facts t
  show FloatOps.mulf (edgeScale (V m c main_v55 (((cfg0.win 0).blk t).view.emb j)) (V m c main_v56 (((cfg0.win 1).blk t).view.emb j)) (V m c main_v57 (((cfg0.win 2).blk t).view.emb j))) (V m c main_v57 (((cfg0.win 2).blk t).view.emb j))
    = FloatOps.mulf (edgeScale (V m c main_v55 (((cfg0.win 6).blk t).view.emb j)) (V m c main_v56 (((cfg0.win 6).blk t).view.emb j)) (V m c main_v57 (((cfg0.win 6).blk t).view.emb j))) (V m c main_v57 (((cfg0.win 6).blk t).view.emb j))
  have h0 : ((cfg0.win 0).blk t).view.emb j = ((cfg0.win 6).blk t).view.emb j := by
    funext a; apply Fin.ext
    match a with
    | ⟨0, _⟩ => show win0_0.index t (0 : Fin 2) * 5000 + 1 * (j 0).val = win0_6.index t (0 : Fin 2) * 5000 + 1 * (j 0).val; rw [(e0).1, (e6).1]
    | ⟨1, _⟩ => show win0_0.index t (1 : Fin 2) * 128 + 1 * (j 1).val = win0_6.index t (1 : Fin 2) * 128 + 1 * (j 1).val; rw [(e0).2, (e6).2]
  have h1 : ((cfg0.win 1).blk t).view.emb j = ((cfg0.win 6).blk t).view.emb j := by
    funext a; apply Fin.ext
    match a with
    | ⟨0, _⟩ => show win0_1.index t (0 : Fin 2) * 5000 + 1 * (j 0).val = win0_6.index t (0 : Fin 2) * 5000 + 1 * (j 0).val; rw [(e1).1, (e6).1]
    | ⟨1, _⟩ => show win0_1.index t (1 : Fin 2) * 128 + 1 * (j 1).val = win0_6.index t (1 : Fin 2) * 128 + 1 * (j 1).val; rw [(e1).2, (e6).2]
  have h2 : ((cfg0.win 2).blk t).view.emb j = ((cfg0.win 6).blk t).view.emb j := by
    funext a; apply Fin.ext
    match a with
    | ⟨0, _⟩ => show win0_2.index t (0 : Fin 2) * 5000 + 1 * (j 0).val = win0_6.index t (0 : Fin 2) * 5000 + 1 * (j 0).val; rw [(e2).1, (e6).1]
    | ⟨1, _⟩ => show win0_2.index t (1 : Fin 2) * 128 + 1 * (j 1).val = win0_6.index t (1 : Fin 2) * 128 + 1 * (j 1).val; rw [(e2).2, (e6).2]
  rw [h0, h1, h2]

/-- An index of the array is in point t's block iff each coordinate is in the block's range. -/
theorem mem_blk6 (t : Fin cfg0.N) (i : S25000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v58_3).slice (win0_6.rect t)).set ↔ _
  rw [View.set_slice_whole, Rect.mem_set_unit]
  exact Iff.rfl

/-- The blocks tile the array: row r is in the block of point r / 5000. -/
theorem cover6 (i : S25000x128.Idx) : ∃ t : Fin cfg0.N, (cfg0.win 6).flush t = true ∧ i ∈ ((cfg0.win 6).blk t).view.set := by
  have hi0 : (i 0).val < 25000 := (i 0).isLt
  have hi1 : (i 1).val < 128 := (i 1).isLt
  have hN : (i 0).val / 5000 < cfg0.N := by rw [show cfg0.N = 5 from N_0]; omega
  refine ⟨⟨(i 0).val / 5000, hN⟩, flush0_6 _, ?_⟩
  rw [mem_blk6]
  obtain ⟨e0, e1, e2, e3, e4, e5, e6⟩ := index_facts ⟨(i 0).val / 5000, hN⟩
  intro a
  match a with
  | ⟨0, _⟩ => show win0_6.index ⟨(i 0).val / 5000, hN⟩ (0 : Fin 2) * 5000 ≤ (i 0).val ∧ (i 0).val < win0_6.index ⟨(i 0).val / 5000, hN⟩ (0 : Fin 2) * 5000 + 5000; rw [(e6).1]; show (i 0).val / 5000 * 5000 ≤ (i 0).val ∧ (i 0).val < (i 0).val / 5000 * 5000 + 5000; omega
  | ⟨1, _⟩ => show win0_6.index ⟨(i 0).val / 5000, hN⟩ (1 : Fin 2) * 128 ≤ (i 1).val ∧ (i 1).val < win0_6.index ⟨(i 0).val / 5000, hN⟩ (1 : Fin 2) * 128 + 128; rw [(e6).2]; omega

/-- The fz array when the region ends. -/
theorem final6 (c : Dev nD) : (dats m 0 c).arrAt 6 cfg0.N = GZ (V m c main_v55) (V m c main_v56) (V m c main_v57) :=
  (dats m 0 c).arrAt_eq_of_cover 6 _ (fun t _ => flushed6_eq m c t) (cover6)

end Cert.KernelIdeal.Hand

end
-- ==== Proof.KIValueTail.lean ====
/-
  The program's two results as values of its arguments.

  When the region ends, its four result arrays hold the whole-array functions of the three difference
  arrays, the difference arrays and every other buffer are as the region found them.  Running the lines
  after the region from there gives the two results: the per-graph energies and the per-node forces, as the
  host computation applied to pointwise functions of the gathered coordinate differences.
-/
import proofs.«170533_j6313601925565_2_alg».proof.Proof.KIValueHost
import proofs.«170533_j6313601925565_2_alg».proof.Proof.KIValueBlocks

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.StableHlo

/-- The buffers' contents on core c when the region ends. -/
def atExit (c : Dev nD) : Valuation τ sig (Elt F) :=
  Pipeline.withArrays (cfgs 0).spec c (V0 m c) fun w => (dats m 0 c).arrAt w (cfgs 0).N

theorem exit_arg2 (c : Dev nD) : atExit m c (Proc.devRef .tc main_arg2) = m ((c : Thread nD τ).loc main_arg2) := by
  unfold atExit
  rw [Pipeline.withArrays_of_ne _ c (V0 m c) _ main_arg2 (by decide)]
  exact V_main_arg2 m c
theorem exit_v1 (c : Dev nD) : atExit m c (Proc.devRef .tc main_v1) = endpoints0 (m ((c : Thread nD τ).loc main_arg1)) := by
  unfold atExit
  rw [Pipeline.withArrays_of_ne _ c (V0 m c) _ main_v1 (by decide)]
  exact V_v1 m c
theorem exit_v3 (c : Dev nD) : atExit m c (Proc.devRef .tc main_v3) = endpoints1 (m ((c : Thread nD τ).loc main_arg1)) := by
  unfold atExit
  rw [Pipeline.withArrays_of_ne _ c (V0 m c) _ main_v3 (by decide)]
  exact V_v3 m c
theorem exit_energy (c : Dev nD) : atExit m c (Proc.devRef .tc main_v58_0) = GE (V m c main_v55) (V m c main_v56) (V m c main_v57) :=
  (Pipeline.withArrays_arr spec0 launch0.win.arr_inj c _ _ 3).trans (final3 m c)
theorem exit_fx (c : Dev nD) : atExit m c (Proc.devRef .tc main_v58_1) = GX (V m c main_v55) (V m c main_v56) (V m c main_v57) :=
  (Pipeline.withArrays_arr spec0 launch0.win.arr_inj c _ _ 4).trans (final4 m c)
theorem exit_fy (c : Dev nD) : atExit m c (Proc.devRef .tc main_v58_2) = GY (V m c main_v55) (V m c main_v56) (V m c main_v57) :=
  (Pipeline.withArrays_arr spec0 launch0.win.arr_inj c _ _ 5).trans (final5 m c)
theorem exit_fz (c : Dev nD) : atExit m c (Proc.devRef .tc main_v58_3) = GZ (V m c main_v55) (V m c main_v56) (V m c main_v57) :=
  (Pipeline.withArrays_arr spec0 launch0.win.arr_inj c _ _ 6).trans (final6 m c)

/-- The first result: the per-graph energies. -/
theorem tail_energy (c : Dev nD) : Pipeline.afterTail₀ cfgs (dats m) 0 (V0 m) [hostOps1] c main_v76
    = energyTail (m ((c : Thread nD τ).loc main_arg1)) (m ((c : Thread nD τ).loc main_arg2))
        (GE (V m c main_v55) (V m c main_v56) (V m c main_v57)) := by
  show StableHlo.after hostOps1 (atExit m c) (Proc.devRef .tc main_v76) = _
  after_results_simp
  rw [exit_arg2, exit_v1, exit_energy]
  rfl

/-- The line that puts the three force columns side by side writes their concatenation, each column read at its own buffer. -/
theorem rows_result (W : Valuation τ sig (Elt F)) :
    (StableHlo.nary ![main_v63, main_v64, main_v65] main_v66 (fun u => concatenate S3200000x3 1
        [⟨S3200000x1, u 0⟩, ⟨S3200000x1, u 1⟩, ⟨S3200000x1, u 2⟩] concatenates_S3200000x1_S3200000x1_S3200000x1_S3200000x3_d1)).result W
      (no_index (Proc.devRef .tc main_v66))
    = concatenate S3200000x3 1
        [⟨S3200000x1, W (Proc.devRef .tc main_v63)⟩, ⟨S3200000x1, W (Proc.devRef .tc main_v64)⟩, ⟨S3200000x1, W (Proc.devRef .tc main_v65)⟩]
        concatenates_S3200000x1_S3200000x1_S3200000x1_S3200000x3_d1 :=
  StableHlo.nary_result _ _ _ _ _ W

/-- Running two stretches of host lines one after the other is running their concatenation. -/
theorem after_append (l₁ l₂ : List (HloOp τ sig (Elt F))) (W : Valuation τ sig (Elt F)) :
    StableHlo.after (l₁ ++ l₂) W = StableHlo.after l₂ (StableHlo.after l₁ W) := by
  induction l₁ generalizing W with
  | nil => rfl
  | cons op l ih => exact ih _

/-- The buffers' contents after the first seven lines that follow the region: the four result arrays flattened and the
    three force columns laid out as columns. -/
def atColumns (c : Dev nD) : Valuation τ sig (Elt F) := StableHlo.after ((hostOps1 : List (HloOp τ sig (Elt F))).take 7) (atExit m c)

theorem columns_v1 (c : Dev nD) : atColumns m c (Proc.devRef .tc main_v1) = endpoints0 (m ((c : Thread nD τ).loc main_arg1)) := by
  unfold atColumns
  simp only [hostOps1, List.take_succ_cons, List.take_zero]
  after_results_simp
  exact exit_v1 m c
theorem columns_v3 (c : Dev nD) : atColumns m c (Proc.devRef .tc main_v3) = endpoints1 (m ((c : Thread nD τ).loc main_arg1)) := by
  unfold atColumns
  simp only [hostOps1, List.take_succ_cons, List.take_zero]
  after_results_simp
  exact exit_v3 m c
theorem columns_fx (c : Dev nD) : atColumns m c (Proc.devRef .tc main_v63)
    = broadcastInDim S3200000x1 ![0] bcast_S3200000_S3200000x1_0
        (shapeCast _ (GX (V m c main_v55) (V m c main_v56) (V m c main_v57)) shapeCasts_S25000x128_S3200000) := by
  unfold atColumns
  simp only [hostOps1, List.take_succ_cons, List.take_zero]
  after_results_simp
  rw [exit_fx]
  rfl
theorem columns_fy (c : Dev nD) : atColumns m c (Proc.devRef .tc main_v64)
    = broadcastInDim S3200000x1 ![0] bcast_S3200000_S3200000x1_0
        (shapeCast _ (GY (V m c main_v55) (V m c main_v56) (V m c main_v57)) shapeCasts_S25000x128_S3200000) := by
  unfold atColumns
  simp only [hostOps1, List.take_succ_cons, List.take_zero]
  after_results_simp
  rw [exit_fy]
  rfl
theorem columns_fz (c : Dev nD) : atColumns m c (Proc.devRef .tc main_v65)
    = broadcastInDim S3200000x1 ![0] bcast_S3200000_S3200000x1_0
        (shapeCast _ (GZ (V m c main_v55) (V m c main_v56) (V m c main_v57)) shapeCasts_S25000x128_S3200000) := by
  unfold atColumns
  simp only [hostOps1, List.take_succ_cons, List.take_zero]
  after_results_simp
  rw [exit_fz]
  rfl

/-- The second result: the per-node forces. -/
theorem tail_forces (c : Dev nD) : Pipeline.afterTail₀ cfgs (dats m) 0 (V0 m) [hostOps1] c main_v92
    = forceTail (m ((c : Thread nD τ).loc main_arg1))
        (forceRows (GX (V m c main_v55) (V m c main_v56) (V m c main_v57)) (GY (V m c main_v55) (V m c main_v56) (V m c main_v57))
          (GZ (V m c main_v55) (V m c main_v56) (V m c main_v57))) := by
  show StableHlo.after ((hostOps1 : List (HloOp τ sig (Elt F))).take 7 ++ (hostOps1 : List (HloOp τ sig (Elt F))).drop 7) (atExit m c) (Proc.devRef .tc main_v92) = _
  rw [after_append]
  show StableHlo.after ((hostOps1 : List (HloOp τ sig (Elt F))).drop 7) (atColumns m c) (Proc.devRef .tc main_v92) = _
  simp only [hostOps1, List.drop_succ_cons, List.drop_zero]
  simp (disch := decide) only [after_cons, after_nil, rows_result,
    nullary_result', unary_result', binary_result', ternary_result', reshape_result',
    nullary_result_ne', unary_result_ne', binary_result_ne', ternary_result_ne', reshape_result_ne', nary_result_ne']
  rw [columns_v1, columns_v3, columns_fx, columns_fy, columns_fz]
  rfl

/-- Every weakly fair execution ends with the two results at these values and the arguments as launched. -/
theorem value_run : θ_run defs (onTc (τ := τ) (main (F := F))) ⟨m, fun _ => 0, ρ⟩ (fun r => ∀ c : Dev nD,
      r.2.mem ((c.tc : Thread nD τ).loc main_v76)
          = energyTail (m ((c : Thread nD τ).loc main_arg1)) (m ((c : Thread nD τ).loc main_arg2))
              (GE (V m c main_v55) (V m c main_v56) (V m c main_v57))
      ∧ r.2.mem ((c.tc : Thread nD τ).loc main_v92)
          = forceTail (m ((c : Thread nD τ).loc main_arg1))
              (forceRows (GX (V m c main_v55) (V m c main_v56) (V m c main_v57)) (GY (V m c main_v55) (V m c main_v56) (V m c main_v57))
                (GZ (V m c main_v55) (V m c main_v56) (V m c main_v57)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v76 (Pipeline.mem_restRefs_of main_v76 (by decide) (by decide))).trans (tail_energy m c),
     ((h c).2 main_v92 (Pipeline.mem_restRefs_of main_v92 (by decide) (by decide))).trans (tail_forces m c),
     ((h c).2 main_arg0 (Pipeline.mem_restRefs_of main_arg0 (by decide) (by decide))).trans
        ((tail_of_arg m (dats m) c main_arg0 hostOps1_keeps_arg0 (by decide)).trans (V_main_arg0 m c)),
     ((h c).2 main_arg1 (Pipeline.mem_restRefs_of main_arg1 (by decide) (by decide))).trans
        ((tail_of_arg m (dats m) c main_arg1 hostOps1_keeps_arg1 (by decide)).trans (V_main_arg1 m c)),
     ((h c).2 main_arg2 (Pipeline.mem_restRefs_of main_arg2 (by decide) (by decide))).trans
        ((tail_of_arg m (dats m) c main_arg2 hostOps1_keeps_arg2 (by decide)).trans (V_main_arg2 m c))⟩) (run_main m ρ)

end Cert.KernelIdeal.Hand

end
-- ==== Proof.LibGatherRows.lean ====
/-
  Two reads of a row gather at an index.

  Taking rows of a table by a column of start indices: for a flat table x of N entries and start indices
  idx of shape [E, 1], entry e of the result is x at idx[e, 0] read as a signed integer and clamped into
  [0, N - 1]; for a table of N rows and K columns the result's entry (e, k) is the table's entry at that
  clamped row and column k.  Both are the general gather's operand index worked out for these dimension
  numbers (one collapsed axis, the start index naming axis 0, the index vector on axis 1).
-/
import Idealize.ShloMosaic.Lib.ValueIdx

namespace Cert.HarmonicLib

open Idealize.ShloMosaic Idealize.ShloMosaic.ValueIdx

variable {α : Type}

/-- The dimension numbers of x[idx] for a flat table x : [N] and a column idx : [E, 1] of start indices. -/
abbrev flatDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry e of the gather from a flat table: the table at the clamped start index of e. -/
theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (flatDims N E wf) x idx y = x (ix1 ⟨min (idx (ix2 (y 0) (0 : Fin 1))).toInt.toNat (N - 1), by omega⟩) := by
  unfold Host.gather
  congr 1
  funext a
  obtain rfl : a = 0 := Subsingleton.elim _ _
  refine Fin.ext ?_
  show (flatDims N E wf).start y idx 0 + (flatDims N E wf).batchCoord y 0 + (flatDims N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N E wf).startIndexMap from List.mem_singleton.mpr rfl)]
  have hsi : (flatDims N E wf).siIdx y ⟨List.idxOf (0 : Fin 1) (flatDims N E wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

/-- The dimension numbers of x[idx] for a table x : [N, K] of rows and a column idx : [E, 1] of start indices. -/
abbrev rowDims (N K E : Nat) (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- Entry (e, k) of the gather of rows: the table at the clamped start index of e and column k. -/
theorem gather_row_apply {N K E w : Nat} (hN : 0 < N)
    (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (y : (⟨2, ![E, K]⟩ : Shape).Idx) :
    Host.gather (rowDims N K E wf) x idx y
      = x (ix2 ⟨min (idx (ix2 (y 0) (0 : Fin 1))).toInt.toNat (N - 1), by omega⟩ (y 1)) := by
  unfold Host.gather
  congr 1
  funext a
  refine Fin.ext ?_
  show (rowDims N K E wf).start y idx a + (rowDims N K E wf).batchCoord y a + (rowDims N K E wf).offCoord y a = _
  rw [GatherDims.batchCoord_eq_zero _ _ _ List.not_mem_nil]
  have ha : a = 0 ∨ a = 1 := by
    revert a; show ∀ a : Fin 2, a = 0 ∨ a = 1; decide
  rcases ha with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N K E wf).startIndexMap from List.mem_singleton.mpr rfl)]
    have hsi : (rowDims N K E wf).siIdx y ⟨List.idxOf (0 : Fin 2) (rowDims N K E wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  · have hstart : (rowDims N K E wf).start y idx (1 : Fin 2) = 0 := by
      unfold GatherDims.start
      rw [dif_neg (show (1 : Fin 2) ∉ [(0 : Fin 2)] from by decide)]
    have hk : (1 : Fin 2) ∈ (rowDims N K E wf).sKept :=
      (GatherDims.mem_sKept _ _).mpr ⟨(show (1 : Fin 2) ∉ [(0 : Fin 2)] from by decide), List.not_mem_nil⟩
    show (rowDims N K E wf).start y idx (1 : Fin 2) + 0 + (rowDims N K E wf).offCoord y (1 : Fin 2) = _
    rw [hstart]
    unfold GatherDims.offCoord
    rw [dif_pos hk]
    simp only [Nat.zero_add]
    rfl

end Cert.HarmonicLib
-- ==== Proof.RefEdge.lean ====
/-
  The reference, edge by edge.

  For edge e the reference gathers the two position rows of its endpoints (each endpoint wrapped if
  negative, then clamped into the table), subtracts them, takes the length d of the difference as the root
  of 0 plus the sum of the three squares, and forms: the energy 1/2 * ((d - 1) * (d - 1)), and for each
  coordinate k the force entry (1 * (d - 1)) * (difference_k / (d + guard)).
-/
import proofs.«170533_j6313601925565_2_alg».proof.Proof.Gen.ReferenceIdeal.Read
import proofs.«170533_j6313601925565_2_alg».proof.Proof.LibGatherRows
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Cert.HarmonicLib

variable (x0 : (⟨S100000x3, .f32⟩ : BufTy).Contents (Elt Ideal)) (x1 : (⟨S2x3200000, .i32⟩ : BufTy).Contents (Elt Ideal))

/-- The table row a column of start indices names for edge e: the start index read signed and clamped. -/
def rowAt (idx : (⟨S3200000x1, .i32⟩ : BufTy).Contents (Elt Ideal)) (e : Fin 3200000) : Fin 100000 :=
  ⟨min (idx (ix2 e (0 : Fin 1))).toInt.toNat (100000 - 1), by omega⟩

/-- Coordinate k of the difference of the two endpoint rows of edge e. -/
def dcoord (e : Fin 3200000) (k : Fin 3) : EReal :=
  x0 (ix2 (rowAt (val_main_v9 (F := Ideal) x1) e) k) - x0 (ix2 (rowAt (val_main_v16 (F := Ideal) x1) e) k)

/-- The gather of rows, read at an entry. -/
theorem gatherRows_apply (idx : (⟨S3200000x1, .i32⟩ : BufTy).Contents (Elt Ideal)) (e : Fin 3200000) (k : Fin 3) :
    Host.gather gather_S100000x3_S3200000x1_S3200000x3_1_0_n_n_0_1_13 x0 idx (ix2 e k) = x0 (ix2 (rowAt idx e) k) :=
  gather_row_apply (N := 100000) (K := 3) (E := 3200000) (by decide)
    Gen.gather_S100000x3_S3200000x1_S3200000x3_1_0_n_n_0_1_13_wf x0 idx (ix2 e k)

/-- The difference array at entry (e, k). -/
theorem v18_at (e : Fin 3200000) (k : Fin 3) : val_main_v18 (F := Ideal) x0 x1 (ix2 e k) = dcoord x0 x1 e k := by
  rw [val_main_v18_apply]
  unfold val_main_v10 val_main_v17
  rw [gatherRows_apply, gatherRows_apply]
  rfl

/-- The squared length of edge e's difference: 0 plus the three squares. -/
theorem sumsq_at (e : Fin 3200000) :
    val_main_call0_v1 (F := Ideal) x0 x1 (ix1 e)
      = Ideal.ofBits .f32 0x00000000#32 + (dcoord x0 x1 e 0 * dcoord x0 x1 e 0 + dcoord x0 x1 e 1 * dcoord x0 x1 e 1 + dcoord x0 x1 e 2 * dcoord x0 x1 e 2) := by
  rw [val_main_call0_v1_apply, val_main_call0_cst_apply, Fin.sum_univ_three]
  have hk : ∀ k : Fin 3, idx_main_call0_v1 (ix1 e) k = ix2 e k := fun k =>
    funext fun a => Fin.ext (by match a with | ⟨0, _⟩ => rfl | ⟨1, _⟩ => rfl)
  simp only [val_main_call0_v0_apply, hk, v18_at]
  rfl

/-- The length of edge e's difference. -/
def lenAt (e : Fin 3200000) : EReal :=
  Ideal.sqrt (Ideal.ofBits .f32 0x00000000#32 + (dcoord x0 x1 e 0 * dcoord x0 x1 e 0 + dcoord x0 x1 e 1 * dcoord x0 x1 e 1 + dcoord x0 x1 e 2 * dcoord x0 x1 e 2))

theorem v19_at (e : Fin 3200000) : val_main_v19 (F := Ideal) x0 x1 (ix1 e) = lenAt x0 x1 e := by
  rw [val_main_v19_apply, sumsq_at]; rfl

theorem v21_at (e : Fin 3200000) : val_main_v21 (F := Ideal) x0 x1 (ix1 e) = lenAt x0 x1 e - Ideal.ofBits .f32 0x3F800000#32 := by
  rw [val_main_v21_apply, v19_at, val_main_v20_apply, val_main_cst_apply]; rfl

/-- The reference's energy of edge e. -/
theorem energy_at (e : Fin 3200000) :
    val_main_v24 (F := Ideal) x0 x1 (ix1 e)
      = Ideal.ofBits .f32 0x3F000000#32 * ((lenAt x0 x1 e - Ideal.ofBits .f32 0x3F800000#32) * (lenAt x0 x1 e - Ideal.ofBits .f32 0x3F800000#32)) := by
  rw [val_main_v24_apply, val_main_v23_apply, val_main_cst_3_apply, val_main_v22_apply, v21_at]; rfl

/-- The reference's force entry (e, k). -/
theorem force_at (e : Fin 3200000) (k : Fin 3) :
    val_main_v44 (F := Ideal) x0 x1 (ix2 e k)
      = (Ideal.ofBits .f32 0x3F800000#32 * (lenAt x0 x1 e - Ideal.ofBits .f32 0x3F800000#32))
        * Ideal.div (dcoord x0 x1 e k) (lenAt x0 x1 e + Ideal.ofBits .f32 0x1E3CE508#32) := by
  have h0 : idx_main_v42 (idx_main_v43 (ix2 e k)) = ix1 e := funext fun a => Fin.ext (by match a with | ⟨0, _⟩ => rfl)
  have h1 : idx_main_v37 (idx_main_v38 (ix2 e k)) = ix1 e := funext fun a => Fin.ext (by match a with | ⟨0, _⟩ => rfl)
  rw [val_main_v44_apply, val_main_v43_apply, val_main_v42_apply, h0, val_main_v41_apply, val_main_v40_apply, val_main_cst_8_apply, v21_at,
    val_main_v39_apply, v18_at, val_main_v38_apply, val_main_v37_apply, h1, val_main_v36_apply, v19_at, val_main_v35_apply, val_main_cst_7_apply]
  rfl

end Cert.ReferenceIdeal.RefValue

end
-- ==== Proof.LibHarmonicLaw.lean ====
/-
  The arithmetic of one edge, on the extended reals.

  For an edge with coordinate differences dx, dy, dz put q = dx*dx + dy*dy + dz*dz, d = sqrt q, delta = d - 1
  and s = d + eps, eps the positive guard constant.  A square is never negative on the extended reals
  (the square of either infinity is +inf), so q is in [0, +inf], d is in [0, +inf] and s is positive: the
  guard makes the quotient an honest product with the inverse of s, for every input, finite or not.

  One program multiplies (delta * (1/s)) by a difference x, the other multiplies delta by x/s.  Off zero the
  quotient a/s is a * s^-1, so both are products of the same three factors and agree by commutativity and
  associativity alone.  Likewise (h*delta)*delta = h*(delta*delta) for the energy.
-/
import Idealize.ShloMosaic.PureOps.Ideal

noncomputable section

namespace Cert.Harmonic

open Idealize.ShloMosaic

/-- The word of 1.0 denotes the number one. -/
theorem one_eq : Ideal.ofBits .f32 0x3F800000#32 = 1 := by
  simp [Ideal.ofBits, Ideal.ieee, -EReal.coe_mul]; norm_num

/-- The word of +0.0 denotes zero. -/
theorem zero_eq : Ideal.ofBits .f32 0x00000000#32 = 0 := by
  simp [Ideal.ofBits, Ideal.ieee]

/-- The guard constant (the float nearest 1e-20) is a positive real. -/
theorem eps_pos : (0 : EReal) < Ideal.ofBits .f32 0x1E3CE508#32 := by
  simp [Ideal.ofBits, Ideal.ieee, -EReal.coe_mul]

/-- A square is not negative, at the infinities too. -/
theorem mul_self_nonneg (x : EReal) : 0 ≤ x * x := by
  induction x using EReal.rec with
  | bot => simp
  | top => simp
  | coe r => rw [← EReal.coe_mul]; exact_mod_cast _root_.mul_self_nonneg r

/-- The root of a non-negative extended real is non-negative. -/
theorem sqrt_nonneg {q : EReal} (h : 0 ≤ q) : 0 ≤ Ideal.sqrt q := by
  induction q using EReal.rec with
  | bot => simp at h
  | top =>
    have e : Ideal.sqrt (⊤ : EReal) = ⊤ := rfl
    rw [e]; exact le_top
  | coe r =>
    have hr : 0 ≤ r := by exact_mod_cast h
    have e : Ideal.sqrt (r : EReal) = if r < 0 then ⊥ else ((Real.sqrt r : ℝ) : EReal) := rfl
    rw [e, if_neg (not_lt.mpr hr)]
    exact_mod_cast Real.sqrt_nonneg r

/-- The sum of the three squares is not negative. -/
theorem sumsq_nonneg (dx dy dz : EReal) : 0 ≤ dx * dx + dy * dy + dz * dz :=
  add_nonneg (add_nonneg (mul_self_nonneg dx) (mul_self_nonneg dy)) (mul_self_nonneg dz)

/-- The guarded length is never zero. -/
theorem guard_ne_zero (dx dy dz : EReal) :
    Ideal.sqrt (dx * dx + dy * dy + dz * dz) + Ideal.ofBits .f32 0x1E3CE508#32 ≠ 0 := by
  have h1 : 0 ≤ Ideal.sqrt (dx * dx + dy * dy + dz * dz) := sqrt_nonneg (sumsq_nonneg dx dy dz)
  have h2 : Ideal.ofBits .f32 0x1E3CE508#32 ≤ Ideal.sqrt (dx * dx + dy * dy + dz * dz) + Ideal.ofBits .f32 0x1E3CE508#32 :=
    le_add_of_nonneg_left h1
  exact ne_of_gt (lt_of_lt_of_le eps_pos h2)

/-- Off zero a quotient is the product with the inverse. -/
theorem div_of_ne {s : EReal} (hs : s ≠ 0) (x : EReal) : Ideal.div x s = x * s⁻¹ := by
  unfold Ideal.div; rw [if_neg hs]

/-- The force law: scaling by delta/s and then by x is scaling x/s by delta. -/
theorem force_eq (a x s : EReal) (hs : s ≠ 0) :
    (a * Ideal.div (Ideal.ofBits .f32 0x3F800000#32) s) * x = a * Ideal.div x s := by
  rw [div_of_ne hs, div_of_ne hs, one_eq, one_mul, mul_assoc, mul_comm s⁻¹ x]

/-- The energy law. -/
theorem energy_eq (h δ : EReal) : (h * δ) * δ = h * (δ * δ) := mul_assoc h δ δ

end Cert.Harmonic

end
-- ==== Proof.BridgeEdge.lean ====
/-
  The two programs agree edge by edge, on the extended reals.

  Both programs start from the same two columns of start indices (the wrapped endpoints), so they read the
  same table rows.  The kernel's three difference columns are the reference's difference rows taken one
  coordinate at a time.  With a, b, c the three differences of an edge, the kernel's energy is
  (1/2 * (len - 1)) * (len - 1) with len = sqrt ((a*a + b*b) + c*c), the reference's is
  1/2 * ((len' - 1) * (len' - 1)) with len' = sqrt (0 + (a*a + b*b + c*c)): the same number.  The kernel's
  force entry is ((1 * (len - 1)) * (1 / (len + guard))) * x, the reference's (1 * (len - 1)) * (x / (len + guard)):
  equal because len + guard is never zero.
-/
import proofs.«170533_j6313601925565_2_alg».proof.Proof.KIValueHost
import proofs.«170533_j6313601925565_2_alg».proof.Proof.KIValueEdge
import proofs.«170533_j6313601925565_2_alg».proof.Proof.RefEdge
import proofs.«170533_j6313601925565_2_alg».proof.Proof.LibHarmonicLaw

noncomputable section

namespace Cert.Proof.Edge

open Idealize.ShloMosaic Idealize.ShloMosaic.TcCoe Idealize.ShloMosaic.ValueIdx Cert.HarmonicLib
open Cert.KernelIdeal.Hand
open Cert.ReferenceIdeal.RefValue

variable (x0 : (⟨Cert.KernelIdeal.S100000x3, .f32⟩ : BufTy).Contents (Elt Ideal))
  (x1 : (⟨Cert.KernelIdeal.S2x3200000, .i32⟩ : BufTy).Contents (Elt Ideal))

/-- The kernel's columns of start indices are the reference's. -/
theorem starts0_eq : startsOf (F := Ideal) (endpoints0 x1) = Cert.ReferenceIdeal.Read.val_main_v9 (F := Ideal) x1 := rfl
theorem starts1_eq : startsOf (F := Ideal) (endpoints1 x1) = Cert.ReferenceIdeal.Read.val_main_v16 (F := Ideal) x1 := rfl

/-- The gather from a flat table, read at an entry. -/
theorem gatherFlat_apply {α : Type} (p : Cert.KernelIdeal.S100000.Idx → α)
    (idx : (⟨Cert.KernelIdeal.S3200000x1, .i32⟩ : BufTy).Contents (Elt Ideal)) (e : Fin 3200000) :
    Host.gather Cert.KernelIdeal.gather_S100000_S3200000x1_S3200000_n_0_n_n_0_1_1 p idx (ix1 e) = p (ix1 (rowAt idx e)) :=
  gather_flat_apply (N := 100000) (E := 3200000) (by decide)
    Cert.KernelIdeal.Gen.gather_S100000_S3200000x1_S3200000_n_0_n_n_0_1_1_wf p idx (ix1 e)

/-- Column k of the positions at node n is the position table's entry (n, k). -/
theorem posCol0_at (n : Fin 100000) : posCol0 (F := Ideal) x0 (ix1 n) = x0 (ix2 n 0) := by
  unfold posCol0
  rw [shapeCast_apply _ _ (ix1 n) (ix2 n (0 : Fin 1))
    (by rewrite [Shape.rowMajor_val_two, Shape.rowMajor_val_one]; show n.val * 1 + 0 = n.val; omega)]
  exact extractStridedSlice_apply ![0, 0] x0 _ (ix2 n (0 : Fin 1)) (ix2 n 0) (fun a => match a with
    | ⟨0, _⟩ => by show n.val = 0 + n.val; omega
    | ⟨1, _⟩ => by show (0 : Nat) = 0 + 0; rfl)
theorem posCol1_at (n : Fin 100000) : posCol1 (F := Ideal) x0 (ix1 n) = x0 (ix2 n 1) := by
  unfold posCol1
  rw [shapeCast_apply _ _ (ix1 n) (ix2 n (0 : Fin 1))
    (by rewrite [Shape.rowMajor_val_two, Shape.rowMajor_val_one]; show n.val * 1 + 0 = n.val; omega)]
  exact extractStridedSlice_apply ![0, 1] x0 _ (ix2 n (0 : Fin 1)) (ix2 n 1) (fun a => match a with
    | ⟨0, _⟩ => by show n.val = 0 + n.val; omega
    | ⟨1, _⟩ => by show (1 : Nat) = 1 + 0; rfl)
theorem posCol2_at (n : Fin 100000) : posCol2 (F := Ideal) x0 (ix1 n) = x0 (ix2 n 2) := by
  unfold posCol2
  rw [shapeCast_apply _ _ (ix1 n) (ix2 n (0 : Fin 1))
    (by rewrite [Shape.rowMajor_val_two, Shape.rowMajor_val_one]; show n.val * 1 + 0 = n.val; omega)]
  exact extractStridedSlice_apply ![0, 2] x0 _ (ix2 n (0 : Fin 1)) (ix2 n 2) (fun a => match a with
    | ⟨0, _⟩ => by show n.val = 0 + n.val; omega
    | ⟨1, _⟩ => by show (2 : Nat) = 2 + 0; rfl)

/-- A difference column at edge e: the table at the first endpoint's row minus the table at the second's. -/
theorem diffOf_at (p : (⟨Cert.KernelIdeal.S100000, .f32⟩ : BufTy).Contents (Elt Ideal)) (e : Fin 3200000) :
    diffOf (F := Ideal) p x1 (ix1 e)
      = FloatOps.subf (F := Ideal) (φ := .f32) (p (ix1 (rowAt (startsOf (F := Ideal) (endpoints0 x1)) e))) (p (ix1 (rowAt (startsOf (F := Ideal) (endpoints1 x1)) e))) := by
  unfold diffOf
  exact congrArg₂ (FloatOps.subf (F := Ideal) (φ := .f32)) (gatherFlat_apply p _ e) (gatherFlat_apply p _ e)

/-- The kernel's difference columns are the reference's difference rows, coordinate by coordinate. -/
theorem diff0_at (e : Fin 3200000) : diffOf (F := Ideal) (posCol0 x0) x1 (ix1 e) = dcoord x0 x1 e 0 := by
  rw [diffOf_at, posCol0_at, posCol0_at, starts0_eq, starts1_eq]; rfl
theorem diff1_at (e : Fin 3200000) : diffOf (F := Ideal) (posCol1 x0) x1 (ix1 e) = dcoord x0 x1 e 1 := by
  rw [diffOf_at, posCol1_at, posCol1_at, starts0_eq, starts1_eq]; rfl
theorem diff2_at (e : Fin 3200000) : diffOf (F := Ideal) (posCol2 x0) x1 (ix1 e) = dcoord x0 x1 e 2 := by
  rw [diffOf_at, posCol2_at, posCol2_at, starts0_eq, starts1_eq]; rfl

/-! ## One edge's arithmetic -/

/-- The kernel's energy of an edge is the reference's. -/
theorem energy_eq (a b c : EReal) :
    edgeEnergy (F := Ideal) a b c
      = Ideal.ofBits .f32 0x3F000000#32
        * ((Ideal.sqrt (Ideal.ofBits .f32 0x00000000#32 + (a * a + b * b + c * c)) - Ideal.ofBits .f32 0x3F800000#32)
          * (Ideal.sqrt (Ideal.ofBits .f32 0x00000000#32 + (a * a + b * b + c * c)) - Ideal.ofBits .f32 0x3F800000#32)) := by
  rw [Cert.Harmonic.zero_eq, zero_add]
  exact Cert.Harmonic.energy_eq _ _

/-- The kernel's force entry of an edge along a coordinate x is the reference's. -/
theorem force_eq (a b c x : EReal) :
    FloatOps.mulf (F := Ideal) (edgeScale (F := Ideal) a b c) x
      = (Ideal.ofBits .f32 0x3F800000#32
          * (Ideal.sqrt (Ideal.ofBits .f32 0x00000000#32 + (a * a + b * b + c * c)) - Ideal.ofBits .f32 0x3F800000#32))
        * Ideal.div x (Ideal.sqrt (Ideal.ofBits .f32 0x00000000#32 + (a * a + b * b + c * c)) + Ideal.ofBits .f32 0x1E3CE508#32) := by
  rw [Cert.Harmonic.zero_eq, zero_add]
  exact Cert.Harmonic.force_eq _ x _ (Cert.Harmonic.guard_ne_zero a b c)

end Cert.Proof.Edge

end
-- ==== Proof.BridgeArrays.lean ====
/-
  The two programs' per-edge arrays are equal.

  The kernel lays the three difference columns out as 25000 x 128, computes pointwise, and flattens the
  results back: a pointwise function commutes with the change of layout, and the two changes of layout
  cancel, so entry e of a flattened result is the edge function of the three differences of edge e.  By
  the edge-by-edge agreement, the kernel's energies are the reference's energy array, and the kernel's three
  force columns put side by side are the reference's array of force rows.
-/
import proofs.«170533_j6313601925565_2_alg».proof.Proof.BridgeEdge
import proofs.«170533_j6313601925565_2_alg».proof.Proof.KIValueBlocks

noncomputable section

namespace Cert.Proof.Arrays

open Idealize.ShloMosaic Idealize.ShloMosaic.TcCoe Idealize.ShloMosaic.ValueIdx Cert.HarmonicLib
open Cert.KernelIdeal.Hand
open Cert.ReferenceIdeal.RefValue Cert.Proof.Edge

variable (x0 : (⟨Cert.KernelIdeal.S100000x3, .f32⟩ : BufTy).Contents (Elt Ideal))
  (x1 : (⟨Cert.KernelIdeal.S2x3200000, .i32⟩ : BufTy).Contents (Elt Ideal))

/-- The kernel's flattened energy array is the reference's energy array. -/
theorem energy_array :
    shapeCast _ (GE (F := Ideal) (shapeCast _ (diffOf (F := Ideal) (posCol0 x0) x1) Cert.KernelIdeal.Gen.shapeCasts_S3200000_S25000x128) (shapeCast _ (diffOf (F := Ideal) (posCol1 x0) x1) Cert.KernelIdeal.Gen.shapeCasts_S3200000_S25000x128) (shapeCast _ (diffOf (F := Ideal) (posCol2 x0) x1) Cert.KernelIdeal.Gen.shapeCasts_S3200000_S25000x128)) Cert.KernelIdeal.Gen.shapeCasts_S25000x128_S3200000
      = Cert.ReferenceIdeal.Read.val_main_v24 (F := Ideal) x0 x1 := by
  funext i
  obtain ⟨e, rfl⟩ : ∃ e : Fin 3200000, i = ix1 e := ⟨i 0, eq_ix1 i⟩
  show edgeEnergy (F := Ideal) (shapeCast _ (shapeCast _ (diffOf (F := Ideal) (posCol0 x0) x1) Cert.KernelIdeal.Gen.shapeCasts_S3200000_S25000x128) Cert.KernelIdeal.Gen.shapeCasts_S25000x128_S3200000 (ix1 e)) (shapeCast _ (shapeCast _ (diffOf (F := Ideal) (posCol1 x0) x1) Cert.KernelIdeal.Gen.shapeCasts_S3200000_S25000x128) Cert.KernelIdeal.Gen.shapeCasts_S25000x128_S3200000 (ix1 e)) (shapeCast _ (shapeCast _ (diffOf (F := Ideal) (posCol2 x0) x1) Cert.KernelIdeal.Gen.shapeCasts_S3200000_S25000x128) Cert.KernelIdeal.Gen.shapeCasts_S25000x128_S3200000 (ix1 e)) = _
  rw [shapeCast_shapeCast, shapeCast_shapeCast, shapeCast_shapeCast, diff0_at, diff1_at, diff2_at, energy_at]
  exact Edge.energy_eq _ _ _

/-- Entry e of a flattened force column. -/
theorem fx_at (e : Fin 3200000) :
    shapeCast _ (GX (F := Ideal) (shapeCast _ (diffOf (F := Ideal) (posCol0 x0) x1) Cert.KernelIdeal.Gen.shapeCasts_S3200000_S25000x128) (shapeCast _ (diffOf (F := Ideal) (posCol1 x0) x1) Cert.KernelIdeal.Gen.shapeCasts_S3200000_S25000x128) (shapeCast _ (diffOf (F := Ideal) (posCol2 x0) x1) Cert.KernelIdeal.Gen.shapeCasts_S3200000_S25000x128)) Cert.KernelIdeal.Gen.shapeCasts_S25000x128_S3200000 (ix1 e)
      = Cert.ReferenceIdeal.Read.val_main_v44 (F := Ideal) x0 x1 (ix2 e 0) := by
  show FloatOps.mulf (F := Ideal) (edgeScale (F := Ideal) (shapeCast _ (shapeCast _ (diffOf (F := Ideal) (posCol0 x0) x1) Cert.KernelIdeal.Gen.shapeCasts_S3200000_S25000x128) Cert.KernelIdeal.Gen.shapeCasts_S25000x128_S3200000 (ix1 e)) (shapeCast _ (shapeCast _ (diffOf (F := Ideal) (posCol1 x0) x1) Cert.KernelIdeal.Gen.shapeCasts_S3200000_S25000x128) Cert.KernelIdeal.Gen.shapeCasts_S25000x128_S3200000 (ix1 e)) (shapeCast _ (shapeCast _ (diffOf (F := Ideal) (posCol2 x0) x1) Cert.KernelIdeal.Gen.shapeCasts_S3200000_S25000x128) Cert.KernelIdeal.Gen.shapeCasts_S25000x128_S3200000 (ix1 e))) (shapeCast _ (shapeCast _ (diffOf (F := Ideal) (posCol0 x0) x1) Cert.KernelIdeal.Gen.shapeCasts_S3200000_S25000x128) Cert.KernelIdeal.Gen.shapeCasts_S25000x128_S3200000 (ix1 e)) = _
  rw [shapeCast_shapeCast, shapeCast_shapeCast, shapeCast_shapeCast, diff0_at, diff1_at, diff2_at]
  rw [force_at]
  exact Edge.force_eq _ _ _ _
theorem fy_at (e : Fin 3200000) :
    shapeCast _ (GY (F := Ideal) (shapeCast _ (diffOf (F := Ideal) (posCol0 x0) x1) Cert.KernelIdeal.Gen.shapeCasts_S3200000_S25000x128) (shapeCast _ (diffOf (F := Ideal) (posCol1 x0) x1) Cert.KernelIdeal.Gen.shapeCasts_S3200000_S25000x128) (shapeCast _ (diffOf (F := Ideal) (posCol2 x0) x1) Cert.KernelIdeal.Gen.shapeCasts_S3200000_S25000x128)) Cert.KernelIdeal.Gen.shapeCasts_S25000x128_S3200000 (ix1 e)
      = Cert.ReferenceIdeal.Read.val_main_v44 (F := Ideal) x0 x1 (ix2 e 1) := by
  show FloatOps.mulf (F := Ideal) (edgeScale (F := Ideal) (shapeCast _ (shapeCast _ (diffOf (F := Ideal) (posCol0 x0) x1) Cert.KernelIdeal.Gen.shapeCasts_S3200000_S25000x128) Cert.KernelIdeal.Gen.shapeCasts_S25000x128_S3200000 (ix1 e)) (shapeCast _ (shapeCast _ (diffOf (F := Ideal) (posCol1 x0) x1) Cert.KernelIdeal.Gen.shapeCasts_S3200000_S25000x128) Cert.KernelIdeal.Gen.shapeCasts_S25000x128_S3200000 (ix1 e)) (shapeCast _ (shapeCast _ (diffOf (F := Ideal) (posCol2 x0) x1) Cert.KernelIdeal.Gen.shapeCasts_S3200000_S25000x128) Cert.KernelIdeal.Gen.shapeCasts_S25000x128_S3200000 (ix1 e))) (shapeCast _ (shapeCast _ (diffOf (F := Ideal) (posCol1 x0) x1) Cert.KernelIdeal.Gen.shapeCasts_S3200000_S25000x128) Cert.KernelIdeal.Gen.shapeCasts_S25000x128_S3200000 (ix1 e)) = _
  rw [shapeCast_shapeCast, shapeCast_shapeCast, shapeCast_shapeCast, diff0_at, diff1_at, diff2_at]
  rw [force_at]
  exact Edge.force_eq _ _ _ _
theorem fz_at (e : Fin 3200000) :
    shapeCast _ (GZ (F := Ideal) (shapeCast _ (diffOf (F := Ideal) (posCol0 x0) x1) Cert.KernelIdeal.Gen.shapeCasts_S3200000_S25000x128) (shapeCast _ (diffOf (F := Ideal) (posCol1 x0) x1) Cert.KernelIdeal.Gen.shapeCasts_S3200000_S25000x128) (shapeCast _ (diffOf (F := Ideal) (posCol2 x0) x1) Cert.KernelIdeal.Gen.shapeCasts_S3200000_S25000x128)) Cert.KernelIdeal.Gen.shapeCasts_S25000x128_S3200000 (ix1 e)
      = Cert.ReferenceIdeal.Read.val_main_v44 (F := Ideal) x0 x1 (ix2 e 2) := by
  show FloatOps.mulf (F := Ideal) (edgeScale (F := Ideal) (shapeCast _ (shapeCast _ (diffOf (F := Ideal) (posCol0 x0) x1) Cert.KernelIdeal.Gen.shapeCasts_S3200000_S25000x128) Cert.KernelIdeal.Gen.shapeCasts_S25000x128_S3200000 (ix1 e)) (shapeCast _ (shapeCast _ (diffOf (F := Ideal) (posCol1 x0) x1) Cert.KernelIdeal.Gen.shapeCasts_S3200000_S25000x128) Cert.KernelIdeal.Gen.shapeCasts_S25000x128_S3200000 (ix1 e)) (shapeCast _ (shapeCast _ (diffOf (F := Ideal) (posCol2 x0) x1) Cert.KernelIdeal.Gen.shapeCasts_S3200000_S25000x128) Cert.KernelIdeal.Gen.shapeCasts_S25000x128_S3200000 (ix1 e))) (shapeCast _ (shapeCast _ (diffOf (F := Ideal) (posCol2 x0) x1) Cert.KernelIdeal.Gen.shapeCasts_S3200000_S25000x128) Cert.KernelIdeal.Gen.shapeCasts_S25000x128_S3200000 (ix1 e)) = _
  rw [shapeCast_shapeCast, shapeCast_shapeCast, shapeCast_shapeCast, diff0_at, diff1_at, diff2_at]
  rw [force_at]
  exact Edge.force_eq _ _ _ _

/-- A flat array laid out as a column, read at (e, 0). -/
theorem column_at (g : (⟨Cert.KernelIdeal.S3200000, .f32⟩ : BufTy).Contents (Elt Ideal)) (e : Fin 3200000) :
    broadcastInDim Cert.KernelIdeal.S3200000x1 ![0] Cert.KernelIdeal.Gen.bcast_S3200000_S3200000x1_0 g (ix2 e (0 : Fin 1)) = g (ix1 e) :=
  broadcastInDim_apply ![0] _ g (ix2 e (0 : Fin 1)) (ix1 e) (fun a => match a with
    | ⟨0, _⟩ => by show e.val = if (3200000 : Nat) = 1 then 0 else e.val; rw [if_neg (by decide)])

/-- A result array flattened and laid out as a column. -/
def columnOf (g : (⟨Cert.KernelIdeal.S25000x128, .f32⟩ : BufTy).Contents (Elt Ideal)) : Cert.KernelIdeal.S3200000x1.Idx → Elt Ideal .f32 :=
  broadcastInDim Cert.KernelIdeal.S3200000x1 ![0] Cert.KernelIdeal.Gen.bcast_S3200000_S3200000x1_0
    (shapeCast Cert.KernelIdeal.S3200000 g Cert.KernelIdeal.Gen.shapeCasts_S25000x128_S3200000)

/-- Entry (e, k) of the three columns side by side is entry e of column k. -/
theorem forceRows_at0 (fx fy fz : (⟨Cert.KernelIdeal.S25000x128, .f32⟩ : BufTy).Contents (Elt Ideal)) (e : Fin 3200000) :
    forceRows (F := Ideal) fx fy fz (ix2 e (0 : Fin 3)) = shapeCast Cert.KernelIdeal.S3200000 fx Cert.KernelIdeal.Gen.shapeCasts_S25000x128_S3200000 (ix1 e) := by
  unfold forceRows
  refine (concatenate_apply_piece (t := Cert.KernelIdeal.S3200000x3) (1 : Fin 2)
    [⟨Cert.KernelIdeal.S3200000x1, columnOf fx⟩, ⟨Cert.KernelIdeal.S3200000x1, columnOf fy⟩, ⟨Cert.KernelIdeal.S3200000x1, columnOf fz⟩]
    Cert.KernelIdeal.Gen.concatenates_S3200000x1_S3200000x1_S3200000x1_S3200000x3_d1 (ix2 e (0 : Fin 3)) 0 (show 0 < 3 from by decide)
    Cert.KernelIdeal.S3200000x1 (columnOf fx) rfl rfl 0 rfl (ix2 e (0 : Fin 1)) (fun b hb => ?_) rfl).trans (column_at _ e)
  match b with
  | ⟨0, _⟩ => rfl
  | ⟨1, _⟩ => exact absurd rfl hb
theorem forceRows_at1 (fx fy fz : (⟨Cert.KernelIdeal.S25000x128, .f32⟩ : BufTy).Contents (Elt Ideal)) (e : Fin 3200000) :
    forceRows (F := Ideal) fx fy fz (ix2 e (1 : Fin 3)) = shapeCast Cert.KernelIdeal.S3200000 fy Cert.KernelIdeal.Gen.shapeCasts_S25000x128_S3200000 (ix1 e) := by
  unfold forceRows
  refine (concatenate_apply_piece (t := Cert.KernelIdeal.S3200000x3) (1 : Fin 2)
    [⟨Cert.KernelIdeal.S3200000x1, columnOf fx⟩, ⟨Cert.KernelIdeal.S3200000x1, columnOf fy⟩, ⟨Cert.KernelIdeal.S3200000x1, columnOf fz⟩]
    Cert.KernelIdeal.Gen.concatenates_S3200000x1_S3200000x1_S3200000x1_S3200000x3_d1 (ix2 e (1 : Fin 3)) 1 (show 1 < 3 from by decide)
    Cert.KernelIdeal.S3200000x1 (columnOf fy) rfl rfl 1 rfl (ix2 e (0 : Fin 1)) (fun b hb => ?_) rfl).trans (column_at _ e)
  match b with
  | ⟨0, _⟩ => rfl
  | ⟨1, _⟩ => exact absurd rfl hb
theorem forceRows_at2 (fx fy fz : (⟨Cert.KernelIdeal.S25000x128, .f32⟩ : BufTy).Contents (Elt Ideal)) (e : Fin 3200000) :
    forceRows (F := Ideal) fx fy fz (ix2 e (2 : Fin 3)) = shapeCast Cert.KernelIdeal.S3200000 fz Cert.KernelIdeal.Gen.shapeCasts_S25000x128_S3200000 (ix1 e) := by
  unfold forceRows
  refine (concatenate_apply_piece (t := Cert.KernelIdeal.S3200000x3) (1 : Fin 2)
    [⟨Cert.KernelIdeal.S3200000x1, columnOf fx⟩, ⟨Cert.KernelIdeal.S3200000x1, columnOf fy⟩, ⟨Cert.KernelIdeal.S3200000x1, columnOf fz⟩]
    Cert.KernelIdeal.Gen.concatenates_S3200000x1_S3200000x1_S3200000x1_S3200000x3_d1 (ix2 e (2 : Fin 3)) 2 (show 2 < 3 from by decide)
    Cert.KernelIdeal.S3200000x1 (columnOf fz) rfl rfl 2 rfl (ix2 e (0 : Fin 1)) (fun b hb => ?_) rfl).trans (column_at _ e)
  match b with
  | ⟨0, _⟩ => rfl
  | ⟨1, _⟩ => exact absurd rfl hb

/-- The kernel's three force columns side by side are the reference's array of force rows. -/
theorem force_array :
    forceRows (F := Ideal) (GX (F := Ideal) (shapeCast _ (diffOf (F := Ideal) (posCol0 x0) x1) Cert.KernelIdeal.Gen.shapeCasts_S3200000_S25000x128) (shapeCast _ (diffOf (F := Ideal) (posCol1 x0) x1) Cert.KernelIdeal.Gen.shapeCasts_S3200000_S25000x128) (shapeCast _ (diffOf (F := Ideal) (posCol2 x0) x1) Cert.KernelIdeal.Gen.shapeCasts_S3200000_S25000x128)) (GY (F := Ideal) (shapeCast _ (diffOf (F := Ideal) (posCol0 x0) x1) Cert.KernelIdeal.Gen.shapeCasts_S3200000_S25000x128) (shapeCast _ (diffOf (F := Ideal) (posCol1 x0) x1) Cert.KernelIdeal.Gen.shapeCasts_S3200000_S25000x128) (shapeCast _ (diffOf (F := Ideal) (posCol2 x0) x1) Cert.KernelIdeal.Gen.shapeCasts_S3200000_S25000x128)) (GZ (F := Ideal) (shapeCast _ (diffOf (F := Ideal) (posCol0 x0) x1) Cert.KernelIdeal.Gen.shapeCasts_S3200000_S25000x128) (shapeCast _ (diffOf (F := Ideal) (posCol1 x0) x1) Cert.KernelIdeal.Gen.shapeCasts_S3200000_S25000x128) (shapeCast _ (diffOf (F := Ideal) (posCol2 x0) x1) Cert.KernelIdeal.Gen.shapeCasts_S3200000_S25000x128))
      = Cert.ReferenceIdeal.Read.val_main_v44 (F := Ideal) x0 x1 := by
  funext i
  obtain ⟨e, k, rfl⟩ : ∃ (e : Fin 3200000) (k : Fin 3), i = ix2 e k := ⟨i 0, i 1, eq_ix2 i⟩
  have hk : k = 0 ∨ k = 1 ∨ k = 2 := by revert k; decide
  rcases hk with rfl | rfl | rfl
  · exact (forceRows_at0 _ _ _ e).trans (fx_at x0 x1 e)
  · exact (forceRows_at1 _ _ _ e).trans (fy_at x0 x1 e)
  · exact (forceRows_at2 _ _ _ e).trans (fz_at x0 x1 e)

end Cert.Proof.Arrays

end
-- ==== Proof.Claims.lean ====
/-
  The five claims.

  The three frames: the kernel's at the word level and at the ideal level by the same argument (the region's
  invariant is the plain one and no host line writes an argument); the reference's is its run with the
  results dropped.  The ideal pass rewrote nothing, so there is nothing to preserve.  The algebraic claim:
  run from memories that agree on the arguments, the kernel ends with the host scatter-adds applied to its
  per-edge arrays, the reference with the same scatter-adds applied to its per-edge arrays, and the per-edge
  arrays are equal on the extended reals.
-/
import proofs.«170533_j6313601925565_2_alg».proof.Defs
import proofs.«170533_j6313601925565_2_alg».proof.Proof.KFrameRun
import proofs.«170533_j6313601925565_2_alg».proof.Proof.KIValueTail
import proofs.«170533_j6313601925565_2_alg».proof.Proof.BridgeArrays
import proofs.«170533_j6313601925565_2_alg».proof.Proof.Gen.Kernel
import proofs.«170533_j6313601925565_2_alg».proof.Proof.Gen.KernelIdeal
import proofs.«170533_j6313601925565_2_alg».proof.Proof.Gen.ReferenceIdeal
import proofs.«170533_j6313601925565_2_alg».proof.Proof.Gen.ReferenceIdeal.Run
import proofs.«170533_j6313601925565_2_alg».proof.Proof.Gen.ReferenceIdeal.Read
import proofs.«170533_j6313601925565_2_alg».proof.Proof.Gen.Pre_finite_inputs

noncomputable section

namespace Cert.Proof.Claims

open Idealize.ShloMosaic Idealize.ShloMosaic.TcCoe Idealize.SL.Sem
open Cert.KernelIdeal.Hand

/-- The kernel's energies per graph, as a value of the arguments, are the reference's. -/
theorem energy_result (m : (ℓ : Loc Cert.KernelIdeal.nD Cert.KernelIdeal.τ Cert.KernelIdeal.sig) → Buf (Elt Ideal) ℓ) (c : Dev Cert.KernelIdeal.nD) :
    energyTail (F := Ideal) (m ((c : Thread Cert.KernelIdeal.nD Cert.KernelIdeal.τ).loc Cert.KernelIdeal.main_arg1))
        (m ((c : Thread Cert.KernelIdeal.nD Cert.KernelIdeal.τ).loc Cert.KernelIdeal.main_arg2))
        (GE (V m c Cert.KernelIdeal.main_v55) (V m c Cert.KernelIdeal.main_v56) (V m c Cert.KernelIdeal.main_v57))
      = Cert.ReferenceIdeal.Read.val_main_v34 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2)) := by
  rw [V_v55, V_v56, V_v57]
  unfold energyTail Cert.ReferenceIdeal.Read.val_main_v34
  rw [Cert.Proof.Arrays.energy_array]
  rfl

/-- The kernel's forces per node, as a value of the arguments, are the reference's. -/
theorem forces_result (m : (ℓ : Loc Cert.KernelIdeal.nD Cert.KernelIdeal.τ Cert.KernelIdeal.sig) → Buf (Elt Ideal) ℓ) (c : Dev Cert.KernelIdeal.nD) :
    forceTail (F := Ideal) (m ((c : Thread Cert.KernelIdeal.nD Cert.KernelIdeal.τ).loc Cert.KernelIdeal.main_arg1))
        (forceRows (GX (V m c Cert.KernelIdeal.main_v55) (V m c Cert.KernelIdeal.main_v56) (V m c Cert.KernelIdeal.main_v57))
          (GY (V m c Cert.KernelIdeal.main_v55) (V m c Cert.KernelIdeal.main_v56) (V m c Cert.KernelIdeal.main_v57))
          (GZ (V m c Cert.KernelIdeal.main_v55) (V m c Cert.KernelIdeal.main_v56) (V m c Cert.KernelIdeal.main_v57)))
      = Cert.ReferenceIdeal.Read.val_main_v60 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1)) := by
  rw [V_v55, V_v56, V_v57]
  unfold forceTail Cert.ReferenceIdeal.Read.val_main_v60 Cert.ReferenceIdeal.Read.val_main_v53 Cert.ReferenceIdeal.Read.val_main_v46
  rw [Cert.Proof.Arrays.force_array]
  rfl

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨_, _, Cert.KernelIdeal.Hand.value_run (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v34_eq, (hagree c).1, (hagree c).2.1, (hagree c).2.2]
    exact (energy_result m c).symm
  · rw [Cert.ReferenceIdeal.Read.val_main_v60_eq, (hagree c).1, (hagree c).2.1]
    exact (forces_result m c).symm

end Cert.Proof.Claims

end
-- ==== Proof.lean ====
/-
  The certificate of the harmonic-lattice kernel against its reference.

  Both programs compute, for every edge of a graph, the harmonic energy 1/2 (d - 1)^2 of the edge's length d
  and the force (d - 1) * (difference / (d + guard)) along it, sum the energies per graph and scatter the
  forces to the two endpoints.  The kernel gathers the coordinate differences one column at a time, lays
  them out as a 25000 x 128 slab, computes the per-edge quantities in a region of five blocks, and scatters;
  the reference does the same on rows of three coordinates.  On the extended reals the per-edge quantities
  agree (the guard keeps the divisor positive for every input), and everything after them is the same host
  computation, so the results are equal.  The frames and the value of each side are in the modules
  imported below; this file only assembles the five claims.
-/
import proofs.«170533_j6313601925565_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
